-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S1024x2048 .f32 .bf16
  ∧ IdealRules.truncf_extf.Statement Cert.KernelIdeal.S2048x512 .f32 .bf16
  ∧ IdealRules.truncf_extf.Statement Cert.KernelIdeal.S1024x1024 .f32 .bf16
  ∧ IdealRules.truncf_extf.Statement Cert.KernelIdeal.S1024x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S16384x16384 : Shape := ⟨2, ![16384, 16384]⟩
abbrev S2048x512 : Shape := ⟨2, ![2048, 512]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S2048x512 : S_.BroadcastsInDim S2048x512 (![] : Fin 0 → Fin S2048x512.rank)
  reducesTo_S2048x512_S_d0_1 : S2048x512.ReducesTo [0, 1] S_

variable [Facts]

def fn {F : FTy → Type} [FloatOps F] (main_arg0 : FVec F S16384x2048 .f32) (main_arg1 : FVec F S16384x16384 .f32) (main_arg2 : FVec F S2048x512 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  main_v13
-- ==== Kernel.lean ====
abbrev S16384x2048 : Shape := ⟨2, ![16384, 2048]⟩
abbrev S16384x16384 : Shape := ⟨2, ![16384, 16384]⟩
abbrev S2048x512 : Shape := ⟨2, ![2048, 512]⟩
abbrev S16384x512 : Shape := ⟨2, ![16384, 512]⟩
abbrev S1024x2048 : Shape := ⟨2, ![1024, 2048]⟩
abbrev S1024x512 : Shape := ⟨2, ![1024, 512]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S16384x16384, .f32⟩
  | .hbm, ⟨2, _⟩ => ⟨S2048x512, .f32⟩
  | .hbm, ⟨3, _⟩ => ⟨S16384x512, .f32⟩
  | .hbm, ⟨4, _⟩ => ⟨S16384x512, .f32⟩
  | .local _ .vmem, ⟨0, _⟩ => ⟨S1024x2048, .f32⟩
  | .local _ .vmem, ⟨1, _⟩ => ⟨S1024x2048, .f32⟩
  | .local _ .vmem, ⟨2, _⟩ => ⟨S2048x512, .f32⟩
  | .local _ .vmem, ⟨3, _⟩ => ⟨S1024x512, .f32⟩
  | .local _ .vmem, ⟨4, _⟩ => ⟨S1024x512, .f32⟩
  | .local _ .vmem, ⟨5, _⟩ => ⟨S1024x1024, .f32⟩
  | .local _ .vmem, ⟨6, _⟩ => ⟨S1024x1024, .f32⟩
  | .local _ .vmem, ⟨7, _⟩ => ⟨S16384x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 16], ![false, false]⟩

def k1_mult1 (i : grid1.Coords) : BitVec 32 :=
  let arg1 : BitVec 32 := BitVec.ofNat 32 (i 1).val
  let c1024_i32 : BitVec 32 := 1024#32
  let v4 : BitVec 32 := Scalar.muli arg1 c1024_i32
  v4
def k1_off1 (i : grid1.Coords) : Fin 2 → Nat :=
  let arg1 : BitVec 32 := BitVec.ofNat 32 (i 1).val
  let c1024_i32 : BitVec 32 := 1024#32
  let v4 : BitVec 32 := Scalar.muli arg1 c1024_i32
  let v5 : BitVec 32 := v4
  let v6 : Index := Scalar.indexCast v5
  let c0_2 : Index := 0#32
  ![v6.toNat, 0]
def k1_cond2 (i : grid1.Coords) : BitVec 1 :=
  let arg1 : BitVec 32 := BitVec.ofNat 32 (i 1).val
  let c15_i32 : BitVec 32 := 15#32
  let v27 : BitVec 1 := Scalar.cmpi .eq arg1 c15_i32
  let v28 : BitVec 32 := Scalar.extui v27
  let c0_i32_9 : BitVec 32 := 0#32
  let v29 : BitVec 1 := Scalar.cmpi .ne v28 c0_i32_9
  v29

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S16384x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S1024x2048_S1024x2048_0_0 : ∀ a, (![0, 0] : Fin 2 → Nat) a + S1024x2048.size a ≤ S1024x2048.size a
  h_S1024x2048 : 0 < S1024x2048.numel
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  dot_S1024x2048_S2048x512_S1024x512_1_0_0_1_n_n_wf : DotDims.WF S1024x2048 S2048x512 S1024x512 [1] [0] [0] [1] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .f32 = 32 ∨ (Rect.block (s := S2048x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S16384x512.size a
  hwx0_2 : ∀ i : grid0.Coords, EltTy.bits .f32 = 32 ∨ (Rect.block (s := S16384x512) S1024x512.size (cc0_transform_2 i) (hinb0_2 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1024x512.size a ≤ S16384x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S16384x16384.size a
  hwx1_0 : ∀ i : grid1.Coords, EltTy.bits .f32 = 32 ∨ (Rect.block (s := S16384x16384) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x512.size a ≤ S16384x512.size a
  hwx1_1 : ∀ i : grid1.Coords, EltTy.bits .f32 = 32 ∨ (Rect.block (s := S16384x512) S16384x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S16384x512.size a
  hwx1_2 : ∀ i : grid1.Coords, EltTy.bits .f32 = 32 ∨ (Rect.block (s := S16384x512) S1024x512.size (cc1_transform_2 i) (hinb1_2 i)).WholeWords (EltTy.packing .f32)

variable [Facts₀]

def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S16384x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S16384x2048 : Shape := ⟨2, ![16384, 2048]⟩
abbrev S16384x16384 : Shape := ⟨2, ![16384, 16384]⟩
abbrev S2048x512 : Shape := ⟨2, ![2048, 512]⟩
abbrev S16384x512 : Shape := ⟨2, ![16384, 512]⟩

abbrev nBuf : Space → Nat
  | .hbm => 5
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x16384, .f32⟩
  | .hbm, ⟨2, _⟩ => ⟨S2048x512, .f32⟩
  | .hbm, ⟨3, _⟩ => ⟨S16384x512, .f32⟩
  | .hbm, ⟨4, _⟩ => ⟨S16384x512, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S16384x2048_S2048x512_S16384x512_1_0_0_1_n_n_wf : DotDims.WF S16384x2048 S2048x512 S16384x512 [1] [0] [0] [1] [] []
  dot_S16384x16384_S16384x512_S16384x512_1_0_0_1_n_n_wf : DotDims.WF S16384x16384 S16384x512 S16384x512 [1] [0] [0] [1] [] []

variable [Facts₀]

def dot_S16384x2048_S2048x512_S16384x512_1_0_0_1_n_n : DotDims S16384x2048 S2048x512 S16384x512 where
  lhsContracting := [1]
  rhsContracting := [0]
  lhsNonContracting := [0]
  rhsNonContracting := [1]
  lhsBatch := []
  rhsBatch := []
  wf := dot_S16384x2048_S2048x512_S16384x512_1_0_0_1_n_n_wf
def dot_S16384x16384_S16384x512_S16384x512_1_0_0_1_n_n : DotDims S16384x16384 S16384x512 S16384x512 where
  lhsContracting := [1]
  rhsContracting := [0]
  lhsNonContracting := [0]
  rhsNonContracting := [1]
  lhsBatch := []
  rhsBatch := []
  wf := dot_S16384x16384_S16384x512_S16384x512_1_0_0_1_n_n_wf

class Facts : Prop extends Facts₀ where

variable [Facts]
-- ==== Proof.KnRegion0.lean ====
/-
  The first matrix product as a pipeline region: at every grid point t the body reads the row block t of x
  (1024 rows) and the whole of W, and stores into the output block t ONE value, the body's arithmetic of those two
  blocks. This module states that per point, for any float instance: what each staging buffer holds before and
  after the body, and the body's triple.
-/
import proofs.«180485_j6957847019676_2_alg».proof.Proof.Gen.Kernel.Launch
import proofs.«180485_j6957847019676_2_alg».proof.Proof.Gen.Kernel.Skeleton
import proofs.«180485_j6957847019676_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
-- the core's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of x is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- W, fetched once, is in its staging buffer at every point: its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's three accesses: each a whole staging buffer. -/
abbrev r0_0 : Rect S1024x2048 := Rect.unit (s := S1024x2048) ![0, 0] S1024x2048.size inb_S1024x2048_S1024x2048_0_0
abbrev r0_1 : Rect S2048x512 := Rect.unit (s := S2048x512) ![0, 0] S2048x512.size inb_S2048x512_S2048x512_0_0
abbrev r0_2 : Rect S1024x512 := Rect.unit (s := S1024x512) ![0, 0] S1024x512.size inb_S1024x512_S1024x512_0_0

/-- What the body leaves in the output's staging buffer: its one store, of the body's arithmetic of the two blocks. -/
def out0_2 (x0 : Vec F S1024x2048 .f32) (x1 : Vec F S2048x512 .f32) : Vec F S1024x512 .f32 :=
  View.canon [⟨r0_2, k0_pay1 (View.ld x0 r0_0) (View.ld x1 r0_1)⟩]

/-- That store covers the buffer. -/
theorem cover0_2 (p0 : Vec F S1024x512 .f32) (y : S1024x512.Idx) :
    ∃ pc ∈ ([⟨r0_2, p0⟩] : List (View.Piece (Elt F) S1024x512 .f32)), y ∈ pc.1.set :=
  View.cover_of_tiled [⟨r0_2, p0⟩] S1024x512.size (by rfl) y

set_option maxHeartbeats 1000000 in
/-- The body on whole staging buffers, the inputs' at contents x0 and x1 and the output's at anything, runs to the
    continuation with the inputs' as they were and the output's at out0_2 x0 x1. -/
theorem sound_kernel0 (c : Dev nD) (E : Set ℕ) (i : grid0.Coords) (arg1 : Memref sig .tc .vmem S1024x2048 .f32) (harg1 : arg1.IsWhole)
    (arg2 : Memref sig .tc .vmem S2048x512 .f32) (harg2 : arg2.IsWhole) (arg3 : Memref sig .tc .vmem S1024x512 .f32) (harg3 : arg3.IsWhole)
    (x0 : Vec F S1024x2048 .f32) (x1 : Vec F S2048x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul1_kernel i arg1 harg1 arg2 harg2 arg3 harg3) K := by
  simp only [cc0__matmul1_kernel_eq_skeleton]; unfold cc0__matmul1_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the region on core c: the arrays as the region finds them; after the body at point t the
    inputs' buffers at their blocks and the output's at out0_2 of them; nothing carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Frm

end
-- ==== Proof.KnRegion1Base.lean ====
/-
  The second matrix product as a pipeline region over a 16 x 16 grid (row block i, column block k of adj): what the
  three cases of a grid point share. At k = 0 the running sum kept in the scratch buffer is reset, at every point the
  product of the adj tile with the matching 1024 rows of h is added to it, and at k = 15 it is stored into the output
  block i; at the other points the output's staging buffer is left alone and not written back.
-/
import proofs.«180485_j6957847019676_2_alg».proof.Proof.Gen.Kernel.Launch
import proofs.«180485_j6957847019676_2_alg».proof.Proof.Gen.Kernel.Skeleton
import proofs.«180485_j6957847019676_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The reset's condition, k = 0, from the grid coordinates. -/
abbrev cond1_0 (i : grid1.Coords) : Prop := (Scalar.cmpi .ne (Scalar.extui (Scalar.cmpi .eq (BitVec.ofNat 32 (i 1).val) 0#32)) 0#32) = 1#1
/-- It holds at the points = 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)

/-- The final store's condition, k = 15. -/
abbrev cond1_1 (i : grid1.Coords) : Prop := k1_cond2 i = 1#1
/-- It holds at the points = 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-- The two inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Where k is not 15 the output is idle and not written back; at k = 15 it is live. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_2_C : ∀ t : Fin cfg1.N, ¬cond1_0 (grid1.coords t) → cond1_1 (grid1.coords t) → cfg1.idle 2 (grid1.coords t) = false := by decide +kernel

/-- One staging buffer of the output window, through which its contents are stated. -/
abbrev VO1_2 : View sig .tc .vmem S1024x512 .f32 := (Memref.whole cc1_stg2_0 : Memref sig .tc .vmem S1024x512 .f32).view
/-- Each window's current staging memref at point t, as the pipeline passes it, and its wholeness. -/
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .f32 := win1_2.stage (cfg1.slots t 2)
abbrev hs1_2 (t : Fin cfg1.N) : (ms1_2 t).IsWhole := hstage1_2 ((cfg1.slots t 2).cast nbuf1_2)
/-- The scratch buffer holding the running sum, and its view. -/
abbrev scM1 : Memref sig .tc .vmem S1024x512 .f32 := Memref.whole cc1_scratch0
abbrev VS1 : View sig .tc .vmem S1024x512 .f32 := scM1.view

/-- The core's scoped buffers other than this region's staging buffers and its scratch: the first region's five
    staging buffers, each whole at some contents. The body never touches them. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- What the region is handed besides its windows: those five buffers, the scratch at some contents, and the
    generator register at some state. -/
theorem PhiA1_split (c : Dev nD) :
    (Pipeline.ΦA spec1 c : sProp 𝕄) ⊢ iprop(others1 (F := F) c ∗ (∃ d, owns (c : Thread nD τ) scM1 fullShare d) ∗ (∃ r, prngReg c r)) := by
  unfold Pipeline.ΦA others1; rw [scopedRest1_eq]; simp only [scM1, owns_whole]
  iintro ⟨⟨A, B, C, D, E, S⟩, P⟩
  isplitl [A B C D E]
  · isplitl [A]; · iexact A
    isplitl [B]; · iexact B
    isplitl [C]; · iexact C
    isplitl [D]; · iexact D
    iexact E
  isplitl [S]; · iexact S
  iexact P

/-- And back. -/
theorem PhiA1_join (c : Dev nD) :
    iprop(others1 (F := F) c ∗ (∃ d, owns (c : Thread nD τ) scM1 fullShare d) ∗ (∃ r, prngReg c r)) ⊢ (Pipeline.ΦA spec1 c : sProp 𝕄) := by
  unfold Pipeline.ΦA others1; rw [scopedRest1_eq]; simp only [scM1, owns_whole]
  iintro ⟨⟨A, B, C, D, E⟩, S, P⟩
  isplitr [P]
  · isplitl [A]; · iexact A
    isplitl [B]; · iexact B
    isplitl [C]; · iexact C
    isplitl [D]; · iexact D
    isplitl [E]; · iexact E
    iexact S
  iexact P

end Cert.Kernel.Frm

end
-- ==== Proof.KnRegion1RunA.lean ====
/-
  The body at a point with k = 0: the scratch is reset, then the tile's product is added; the output is left alone.
-/
import proofs.«180485_j6957847019676_2_alg».proof.Proof.KnRegion1Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the scratch at a point with k = 0 (the output gets none), with the body's
    triple: inputs at their contents, the idle output handed back untouched, the scratch entered at anything. -/
noncomputable def kernelRun1_A (c : Dev nD) (i : grid1.Coords) (arg2 : Memref sig .tc .vmem S1024x1024 .f32) (harg2 : arg2.IsWhole) (arg3 : Memref sig .tc .vmem S16384x512 .f32) (harg3 : arg3.IsWhole) (arg4 : Memref sig .tc .vmem S1024x512 .f32) (harg4 : arg4.IsWhole) (arg5 : Memref sig .tc .vmem S1024x512 .f32) (harg5 : arg5.IsWhole) (hc0 : cond1_0 i) (hc1 : ¬cond1_1 i)
    (x0 : Vec F S1024x1024 .f32) (x1 : Vec F S16384x512 .f32) :
    Σ' (L2 : List (View.Piece (Elt F) S1024x512 .f32)), { LS : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__matmul2_kernel i arg2 harg2 arg3 harg3 arg4 harg4 arg5 harg5) K } := by
  refine ⟨[], ?_, fun xi2 E K => ?run⟩
  case run =>
    simp only [cc1__matmul2_kernel_eq_skeleton]; unfold cc1__matmul2_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Frm

end
-- ==== Proof.KnRegion1RunB.lean ====
/-
  The body at a point with 0 < k < 15: the tile's product is added to the running sum; the output is left alone.
-/
import proofs.«180485_j6957847019676_2_alg».proof.Proof.KnRegion1RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's store leaves in the scratch at a point with 0 < k < 15, with the body's triple: inputs at
    their contents, the idle output handed back untouched, the scratch entered at the running sum so far. -/
noncomputable def kernelRun1_B (c : Dev nD) (i : grid1.Coords) (arg2 : Memref sig .tc .vmem S1024x1024 .f32) (harg2 : arg2.IsWhole) (arg3 : Memref sig .tc .vmem S16384x512 .f32) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : ¬cond1_1 i)
    (x0 : Vec F S1024x1024 .f32) (x1 : Vec F S16384x512 .f32) (xs : Vec F S1024x512 .f32) :
    Σ' (L2 : List (View.Piece (Elt F) S1024x512 .f32)), { LS : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__matmul2_kernel i arg2 harg2 arg3 harg3 arg4 harg4 arg5 harg5) K } := by
  refine ⟨[], ?_, fun xi2 E K => ?run⟩
  case run =>
    simp only [cc1__matmul2_kernel_eq_skeleton]; unfold cc1__matmul2_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Frm

end
-- ==== Proof.KnRegion1RunC.lean ====
/-
  The body at a point with k = 15: the last tile's product is added and the finished sum is stored into the output.
-/
import proofs.«180485_j6957847019676_2_alg».proof.Proof.KnRegion1RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the output and in the scratch at a point with k = 15, with the body's
    triple: inputs at their contents, the output entered at anything, the scratch at the running sum so far. -/
noncomputable def kernelRun1_C (c : Dev nD) (i : grid1.Coords) (arg2 : Memref sig .tc .vmem S1024x1024 .f32) (harg2 : arg2.IsWhole) (arg3 : Memref sig .tc .vmem S16384x512 .f32) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x1024 .f32) (x1 : Vec F S16384x512 .f32) (xs : Vec F S1024x512 .f32) :
    Σ' (L2 : List (View.Piece (Elt F) S1024x512 .f32)), { LS : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc1__matmul2_kernel i arg2 harg2 arg3 harg3 arg4 harg4 arg5 harg5) K } := by
  refine ⟨?_, ?_, fun E K => ?run⟩
  case run =>
    simp only [cc1__matmul2_kernel_eq_skeleton]; unfold cc1__matmul2_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Frm

end
-- ==== Proof.KnRegion1.lean ====
/-
  The second matrix product's region, point by point: what each of the three cases leaves in the scratch and in the
  output's staging buffer, the running sum as a recursion over the 256 grid points, the invariant that carries it
  from one point to the next, and the body's triple at every point by cases on k.
-/
import proofs.«180485_j6957847019676_2_alg».proof.Proof.KnRegion1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- Case A: what the point leaves in the output's staging buffer (nothing is stored: a placeholder nothing consults), -/
def out1_A_2 (c : Dev nD) (i : grid1.Coords) (arg2 : Memref sig .tc .vmem S1024x1024 .f32) (harg2 : arg2.IsWhole) (arg3 : Memref sig .tc .vmem S16384x512 .f32) (harg3 : arg3.IsWhole) (arg4 : Memref sig .tc .vmem S1024x512 .f32) (harg4 : arg4.IsWhole) (arg5 : Memref sig .tc .vmem S1024x512 .f32) (harg5 : arg5.IsWhole) (hc0 : cond1_0 i) (hc1 : ¬cond1_1 i)
    (x0 : Vec F S1024x1024 .f32) (x1 : Vec F S16384x512 .f32) : Vec F S1024x512 .f32 :=
  VO1_2.read (Elt F) (VO1_2.writes (Elt F) VO1_2.junk (kernelRun1_A c i arg2 harg2 arg3 harg3 arg4 harg4 arg5 harg5 hc0 hc1 x0 x1).1)

/-- its stores into the scratch cover it, -/
theorem scover1_A (c : Dev nD) (i : grid1.Coords) (arg2 : Memref sig .tc .vmem S1024x1024 .f32) (harg2 : arg2.IsWhole) (arg3 : Memref sig .tc .vmem S16384x512 .f32) (harg3 : arg3.IsWhole) (arg4 : Memref sig .tc .vmem S1024x512 .f32) (harg4 : arg4.IsWhole) (arg5 : Memref sig .tc .vmem S1024x512 .f32) (harg5 : arg5.IsWhole) (hc0 : cond1_0 i) (hc1 : ¬cond1_1 i)
    (x0 : Vec F S1024x1024 .f32) (x1 : Vec F S16384x512 .f32) (y : S1024x512.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1024x512.size (by sl_kernel_rfl) y

/-- and what it leaves in the scratch. -/
def sout1_A (c : Dev nD) (i : grid1.Coords) (arg2 : Memref sig .tc .vmem S1024x1024 .f32) (harg2 : arg2.IsWhole) (arg3 : Memref sig .tc .vmem S16384x512 .f32) (harg3 : arg3.IsWhole) (arg4 : Memref sig .tc .vmem S1024x512 .f32) (harg4 : arg4.IsWhole) (arg5 : Memref sig .tc .vmem S1024x512 .f32) (harg5 : arg5.IsWhole) (hc0 : cond1_0 i) (hc1 : ¬cond1_1 i)
    (x0 : Vec F S1024x1024 .f32) (x1 : Vec F S16384x512 .f32) : Vec F S1024x512 .f32 :=
  VS1.read (Elt F) (VS1.writes (Elt F) VS1.junk (kernelRun1_A c i arg2 harg2 arg3 harg3 arg4 harg4 arg5 harg5 hc0 hc1 x0 x1).2.1)

/-- Case B: what the point leaves in the output's staging buffer (nothing is stored: a placeholder nothing consults), -/
def out1_B_2 (c : Dev nD) (i : grid1.Coords) (arg2 : Memref sig .tc .vmem S1024x1024 .f32) (harg2 : arg2.IsWhole) (arg3 : Memref sig .tc .vmem S16384x512 .f32) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : ¬cond1_1 i)
    (x0 : Vec F S1024x1024 .f32) (x1 : Vec F S16384x512 .f32) (xs : Vec F S1024x512 .f32) : Vec F S1024x512 .f32 :=
  VO1_2.read (Elt F) (VO1_2.writes (Elt F) VO1_2.junk (kernelRun1_B c i arg2 harg2 arg3 harg3 arg4 harg4 arg5 harg5 hc0 hc1 x0 x1 xs).1)

/-- its stores into the scratch cover it, -/
theorem scover1_B (c : Dev nD) (i : grid1.Coords) (arg2 : Memref sig .tc .vmem S1024x1024 .f32) (harg2 : arg2.IsWhole) (arg3 : Memref sig .tc .vmem S16384x512 .f32) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : ¬cond1_1 i)
    (x0 : Vec F S1024x1024 .f32) (x1 : Vec F S16384x512 .f32) (xs : Vec F S1024x512 .f32) (y : S1024x512.Idx) :
    ∃ pc ∈ (kernelRun1_B c i arg2 harg2 arg3 harg3 arg4 harg4 arg5 harg5 hc0 hc1 x0 x1 xs).2.1, y ∈ pc.1.set :=
  View.cover_of_tiledL (kernelRun1_B c i arg2 harg2 arg3 harg3 arg4 harg4 arg5 harg5 hc0 hc1 x0 x1 xs).2.1 S1024x512.size (by sl_kernel_rfl) y

/-- and what it leaves in the scratch. -/
def sout1_B (c : Dev nD) (i : grid1.Coords) (arg2 : Memref sig .tc .vmem S1024x1024 .f32) (harg2 : arg2.IsWhole) (arg3 : Memref sig .tc .vmem S16384x512 .f32) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : ¬cond1_1 i)
    (x0 : Vec F S1024x1024 .f32) (x1 : Vec F S16384x512 .f32) (xs : Vec F S1024x512 .f32) : Vec F S1024x512 .f32 :=
  VS1.read (Elt F) (VS1.writes (Elt F) VS1.junk (kernelRun1_B c i arg2 harg2 arg3 harg3 arg4 harg4 arg5 harg5 hc0 hc1 x0 x1 xs).2.1)

/-- Case C: what the point leaves in the output's staging buffer, -/
def out1_C_2 (c : Dev nD) (i : grid1.Coords) (arg2 : Memref sig .tc .vmem S1024x1024 .f32) (harg2 : arg2.IsWhole) (arg3 : Memref sig .tc .vmem S16384x512 .f32) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x1024 .f32) (x1 : Vec F S16384x512 .f32) (xs : Vec F S1024x512 .f32) : Vec F S1024x512 .f32 :=
  VO1_2.read (Elt F) (VO1_2.writes (Elt F) VO1_2.junk (kernelRun1_C c i arg2 harg2 arg3 harg3 arg4 harg4 arg5 harg5 hc0 hc1 x0 x1 xs).1)

/-- its stores into the scratch cover it, -/
theorem scover1_C (c : Dev nD) (i : grid1.Coords) (arg2 : Memref sig .tc .vmem S1024x1024 .f32) (harg2 : arg2.IsWhole) (arg3 : Memref sig .tc .vmem S16384x512 .f32) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x1024 .f32) (x1 : Vec F S16384x512 .f32) (xs : Vec F S1024x512 .f32) (y : S1024x512.Idx) :
    ∃ pc ∈ (kernelRun1_C c i arg2 harg2 arg3 harg3 arg4 harg4 arg5 harg5 hc0 hc1 x0 x1 xs).2.1, y ∈ pc.1.set :=
  View.cover_of_tiledL (kernelRun1_C c i arg2 harg2 arg3 harg3 arg4 harg4 arg5 harg5 hc0 hc1 x0 x1 xs).2.1 S1024x512.size (by sl_kernel_rfl) y

/-- and what it leaves in the scratch. -/
def sout1_C (c : Dev nD) (i : grid1.Coords) (arg2 : Memref sig .tc .vmem S1024x1024 .f32) (harg2 : arg2.IsWhole) (arg3 : Memref sig .tc .vmem S16384x512 .f32) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x1024 .f32) (x1 : Vec F S16384x512 .f32) (xs : Vec F S1024x512 .f32) : Vec F S1024x512 .f32 :=
  VS1.read (Elt F) (VS1.writes (Elt F) VS1.junk (kernelRun1_C c i arg2 harg2 arg3 harg3 arg4 harg4 arg5 harg5 hc0 hc1 x0 x1 xs).2.1)

/-- At k = 15 the store into the output covers its buffer. -/
theorem cover1_C_2 (c : Dev nD) (i : grid1.Coords) (arg2 : Memref sig .tc .vmem S1024x1024 .f32) (harg2 : arg2.IsWhole) (arg3 : Memref sig .tc .vmem S16384x512 .f32) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x1024 .f32) (x1 : Vec F S16384x512 .f32) (xs : Vec F S1024x512 .f32) (y : S1024x512.Idx) :
    ∃ pc ∈ (kernelRun1_C c i arg2 harg2 arg3 harg3 arg4 harg4 arg5 harg5 hc0 hc1 x0 x1 xs).1, y ∈ pc.1.set :=
  View.cover_of_tiledL (kernelRun1_C c i arg2 harg2 arg3 harg3 arg4 harg4 arg5 harg5 hc0 hc1 x0 x1 xs).1 S1024x512.size (by sl_kernel_rfl) y

section Region1
-- the core's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adj tile is in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole of h, fetched once, is in its staging buffer at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- THE ACCUMULATION: what the output's staging buffer and the scratch hold after the body at position n — the case
    the position's k selects, run at the point's blocks, the scratch entered at what position n - 1 left. -/
def outsAt1 (c : Dev nD) : (n : ℕ) → n < cfg1.N → Vec F S1024x512 .f32 × Vec F S1024x512 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 16 = 0 then
      if h1 : (n + 1) % 16 = 15 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 16 = 15 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 16 = 0) (h1 : ¬t.val % 16 = 15) :
    outsAt1 V c t.val t.isLt = (out1_A_2 c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t), sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (out1_B_2 c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C_2 c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point what the region was handed; afterwards the
    scratch at the running sum the point before left, beside the buffers the body never touches. -/
def PhiS (c : Dev nD) : (n : ℕ) → n ≤ cfg1.N → sProp 𝕄
  | 0, _ => Pipeline.ΦA spec1 c
  | n + 1, hn => iprop(others1 (F := F) c ∗ owns (c : Thread nD τ) scM1 fullShare ((outsAt1 V c n hn).2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(others1 (F := F) c ∗ owns (c : Thread nD τ) scM1 fullShare ((outsAt1 V c n hn).2) ∗ (∃ r, prngReg c r)) := rfl

theorem PhiS_pos (c : Dev nD) (n : ℕ) (h : n ≤ cfg1.N) (hz : n ≠ 0) :
    PhiS V c n h = iprop(others1 (F := F) c ∗ owns (c : Thread nD τ) scM1 fullShare ((outsAt1 V c (n - 1) (by omega)).2) ∗ (∃ r, prngReg c r)) := by
  cases n with
  | zero => exact absurd rfl hz
  | succ n => rfl

/-- The proof data of the region on core c: the arrays as the region finds them; after the body at point t the
    inputs' buffers at their blocks and the output's at the accumulation's first component; the invariant PhiS. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

end Region1

end Cert.Kernel.Frm

end
-- ==== Proof.KnRegion1Body.lean ====
/-
  The second region's body obligation: at every grid point the body, entered with the invariant and the windows'
  staging buffers, returns them as the proof data says — by cases on whether k is 0, 15 or in between.
-/
import proofs.«180485_j6957847019676_2_alg».proof.Proof.KnRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

set_option maxHeartbeats 4800000 in
/-- The body at any point. The inputs' buffers hold their blocks; k decides the case; the invariant hands the body
    the scratch at the running sum so far (at anything before the first point) and takes it back at this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 256 := lt_of_lt_of_eq t.isLt (show cfg1.N = 256 from N_1)
  by_cases h0 : t.val % 16 = 0
  · by_cases h1 : t.val % 16 = 15
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A; (try dsimp only)
      by_cases hz : t.val = 0
      · rw [PhiS_castSucc V c t, PhiS_zero V c _ _ hz]
        iintro ⟨HΦ, Ho, ⟨%d0, H0⟩, ⟨%d1, H1⟩, ⟨%d2, H2⟩⟩
        ihave HΦ' := (PhiA1_split (F := F) c) $$ HΦ
        icases HΦ' with ⟨Hoth, HS, Hg⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS]; · iexact HS
        iintro ⟨H0, H1, H2, ⟨%es, HS⟩⟩
        isplitl [Hoth HS Hg]
        · isplitl [Hoth]; · iexact Hoth
          isplitl [HS]
          · unfold owns; iexists _; isplitr
            swap; · iexact HS
            ipureintro; exact View.read_writes_of_cover _ _ _ _ _ (scover1_A c _ _ _ _ _ _ _ _ _ _ _ _ _)
          iexact Hg
        isplitl [Ho]; · iexact Ho
        isplitl [H0]; · iexact H0
        isplitl [H1]; · iexact H1
        iexists _; iexact H2
      · rw [PhiS_castSucc V c t, PhiS_pos V c _ _ hz]
        iintro ⟨⟨Hoth, HS, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS]; · iexists _; iexact HS
        iintro ⟨H0, H1, H2, ⟨%es, HS⟩⟩
        isplitl [Hoth HS Hg]
        · isplitl [Hoth]; · iexact Hoth
          isplitl [HS]
          · unfold owns; iexists _; isplitr
            swap; · iexact HS
            ipureintro; exact View.read_writes_of_cover _ _ _ _ _ (scover1_A c _ _ _ _ _ _ _ _ _ _ _ _ _)
          iexact Hg
        isplitl [Ho]; · iexact Ho
        isplitl [H0]; · iexact H0
        isplitl [H1]; · iexact H1
        iexists _; iexact H2
  · by_cases h1 : t.val % 16 = 15
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C; (try dsimp only)
      by_cases hz : t.val = 0
      · exfalso; omega
      · rw [PhiS_castSucc V c t, PhiS_pos V c _ _ hz]
        iintro ⟨⟨Hoth, HS, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS]; · iexact HS
        iintro ⟨H0, H1, ⟨%e2, H2⟩, ⟨%es, HS⟩⟩
        isplitl [Hoth HS Hg]
        · isplitl [Hoth]; · iexact Hoth
          isplitl [HS]
          · unfold owns; iexists _; isplitr
            swap; · iexact HS
            ipureintro; exact View.read_writes_of_cover _ _ _ _ _ (scover1_C c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B; (try dsimp only)
      by_cases hz : t.val = 0
      · exfalso; omega
      · rw [PhiS_castSucc V c t, PhiS_pos V c _ _ hz]
        iintro ⟨⟨Hoth, HS, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS]; · iexact HS
        iintro ⟨H0, H1, H2, ⟨%es, HS⟩⟩
        isplitl [Hoth HS Hg]
        · isplitl [Hoth]; · iexact Hoth
          isplitl [HS]
          · unfold owns; iexists _; isplitr
            swap; · iexact HS
            ipureintro; exact View.read_writes_of_cover _ _ _ _ _ (scover1_B c _ _ _ _ _ _ _ _ _ _ _ _ _ _)
          iexact Hg
        isplitl [Ho]; · iexact Ho
        isplitl [H0]; · iexact H0
        isplitl [H1]; · iexact H1
        iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- With the running sum forgotten, the invariant is again what the region was handed. -/
theorem forget_sum (c : Dev nD) (S : Vec F S1024x512 .f32) :
    iprop(others1 (F := F) c ∗ owns (c : Thread nD τ) scM1 fullShare S ∗ (∃ r, prngReg c r)) ⊢ (Pipeline.ΦA spec1 c : sProp 𝕄) :=
  (show iprop(others1 (F := F) c ∗ owns (c : Thread nD τ) scM1 fullShare S ∗ (∃ r, prngReg c r))
      ⊢ iprop(others1 (F := F) c ∗ (∃ d, owns (c : Thread nD τ) scM1 fullShare d) ∗ (∃ r, prngReg c r)) from by
    iintro ⟨Hoth, HS, Hg⟩
    isplitl [Hoth]; · iexact Hoth
    isplitl [HS]; · iexists _; iexact HS
    iexact Hg).trans (PhiA1_join (F := F) c)

/-- After the last point the invariant gives back what the region was handed. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 256 := N_1; omega)]
  exact forget_sum c _

end Region1

end Cert.Kernel.Frm

end
-- ==== Proof.KnRun.lean ====
/-
  The whole program as two regions in a row: the buffer contents at the launch, between the regions and at the end;
  every weakly fair execution terminates, the result array ends at what the second region's write-backs leave, and
  the three argument arrays end as launched.
-/
import proofs.«180485_j6957847019676_2_alg».proof.Proof.KnRegion0
import proofs.«180485_j6957847019676_2_alg».proof.Proof.KnRegion1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch, -/
abbrev W0 : Dev nD → Valuation τ sig (Elt F) := fun c b => m (c, b)
/-- read at the core's references: what the first region is entered at. -/
abbrev Ve0 : (c : Dev nD) → (b : Ref sig .tc) → Buf (Elt F) ((c : Thread nD τ).loc b) := fun c b => W0 m c b
/-- After the first region: its arrays at what its write-backs leave, every other buffer as launched. -/
def W2 (c : Dev nD) : Valuation τ sig (Elt F) :=
  Pipeline.withArrays spec0 c (W0 m c) fun w => (dat0 (Ve0 m) c).arrAt w cfg0.N
theorem W2_arr (c : Dev nD) (w : Fin cfg0.W) :
    W2 m c (Proc.devRef .tc (Pipeline.arrRef spec0 w)) = (dat0 (Ve0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
/-- The same read at the core's references: what the second region is entered at. -/
abbrev Ve1 : (c : Dev nD) → (b : Ref sig .tc) → Buf (Elt F) ((c : Thread nD τ).loc b) := fun c b => W2 m c b
theorem hF0 (c : Dev nD) (w : Fin cfg0.W) : (dat0 (Ve0 m) c).arrAt w cfg0.N = Ve1 m c (Pipeline.arrRef spec0 w) :=
  (W2_arr m c w).symm
theorem hrest0 (c : Dev nD) : ∀ b, b ∉ Finset.univ.image (Pipeline.arrRef spec0) → Ve1 m c b = Ve0 m c b :=
  fun b hb => W2_of_ne m c b fun w e => hb (Finset.mem_image.mpr ⟨w, Finset.mem_univ _, e⟩)

/-- After the second region: its arrays at what its write-backs leave, every other buffer as it was entered. -/
def W4 (c : Dev nD) : Valuation τ sig (Elt F) :=
  Pipeline.withArrays spec1 c (W2 m c) fun w => (dat1 (Ve1 m) c).arrAt w cfg1.N
theorem W4_arr (c : Dev nD) (w : Fin cfg1.W) :
    W4 m c (Proc.devRef .tc (Pipeline.arrRef spec1 w)) = (dat1 (Ve1 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W2 m c (Proc.devRef .tc b) := by
  unfold W4; exact Pipeline.withArrays_of_ne spec1 c _ _ b hb
abbrev Ve2 : (c : Dev nD) → (b : Ref sig .tc) → Buf (Elt F) ((c : Thread nD τ).loc b) := fun c b => W4 m c b
theorem hF1 (c : Dev nD) (w : Fin cfg1.W) : (dat1 (Ve1 m) c).arrAt w cfg1.N = Ve2 m c (Pipeline.arrRef spec1 w) :=
  (W4_arr m c w).symm
theorem hrest1 (c : Dev nD) : ∀ b, b ∉ Finset.univ.image (Pipeline.arrRef spec1) → Ve2 m c b = Ve1 m c b :=
  fun b hb => W4_of_ne m c b fun w e => hb (Finset.mem_image.mpr ⟨w, Finset.mem_univ _, e⟩)

/-! The arguments end as launched: a region reads an argument through an input window or bypasses it. -/

theorem W4_main_arg0 (c : Dev nD) : W4 m c (Proc.devRef .tc main_arg0) = m ((c : Thread nD τ).loc main_arg0) :=
  calc W4 m c (Proc.devRef .tc main_arg0)
    _ = W2 m c (Proc.devRef .tc main_arg0) := W4_of_ne m c main_arg0 (by decide)
    _ = W0 m c (Proc.devRef .tc main_arg0) := (W2_arr m c 0).trans (((dat0 (Ve0 m) c).arrAt_in 0 rfl _).trans (A_eq0 (Ve0 m) c 0))
    _ = m ((c : Thread nD τ).loc main_arg0) := rfl
theorem W4_main_arg2 (c : Dev nD) : W4 m c (Proc.devRef .tc main_arg2) = m ((c : Thread nD τ).loc main_arg2) :=
  calc W4 m c (Proc.devRef .tc main_arg2)
    _ = W2 m c (Proc.devRef .tc main_arg2) := W4_of_ne m c main_arg2 (by decide)
    _ = W0 m c (Proc.devRef .tc main_arg2) := (W2_arr m c 1).trans (((dat0 (Ve0 m) c).arrAt_in 1 rfl _).trans (A_eq0 (Ve0 m) c 1))
    _ = m ((c : Thread nD τ).loc main_arg2) := rfl
theorem W4_main_arg1 (c : Dev nD) : W4 m c (Proc.devRef .tc main_arg1) = m ((c : Thread nD τ).loc main_arg1) :=
  calc W4 m c (Proc.devRef .tc main_arg1)
    _ = Ve1 m c main_arg1 := (W4_arr m c 0).trans (((dat1 (Ve1 m) c).arrAt_in 0 rfl _).trans (A_eq1 (Ve1 m) c 0))
    _ = W0 m c (Proc.devRef .tc main_arg1) := W2_of_ne m c main_arg1 (by decide)
    _ = m ((c : Thread nD τ).loc main_arg1) := rfl
/-- The result array ends at what the second region's write-backs leave in it. -/
theorem W4_main_v1 (c : Dev nD) : W4 m c (Proc.devRef .tc main_v1) = (dat1 (Ve1 m) c).arrAt 2 cfg1.N := W4_arr m c 2
/-- The second region finds in h's array what the first region's write-backs left there. -/
theorem Ve1_main_v0 (c : Dev nD) : Ve1 m c main_v0 = (dat0 (Ve0 m) c).arrAt 2 cfg0.N := W2_arr m c 2
/-- And it finds adj as launched. -/
theorem Ve1_main_arg1 (c : Dev nD) : Ve1 m c main_arg1 = m ((c : Thread nD τ).loc main_arg1) :=
  (W2_of_ne m c main_arg1 (by decide)).trans rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Ve0 m) c
  | ⟨1, _⟩ => fun c => dat1 (Ve1 m) c
abbrev 𝒱₀ : Variants := Variants.none
abbrev L : GSem nD τ sig → Finset Unit := fun _ => ∅
abbrev lv : GSem nD τ sig → Unit → ℕ := fun _ _ => 0
/-- What rides beside the buffers through both regions: the generator register at some state, nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the final contents, the generator register at some state. -/
abbrev Tₙ (c : Dev nD) : sProp 𝕄 := iprop(StableHlo.held (c : Thread nD τ) (Pipeline.ucRefs τ sig) (W4 m c) ∗ ∃ r, prngReg c r)

set_option backward.isDefEq.respectTransparency.types false in
/-- Region 0 over the thread state: entered from every unscoped buffer at W0, left at W2. Its arrays are split
    out of the unscoped buffers at entry and put back at their final contents at exit; the generator register goes
    into the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Ve1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W2, left at W4. Its arrays are split
    out of the unscoped buffers at entry and put back at their final contents at exit; the generator register goes
    into the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h2 : (Pipeline.ΦA spec1 c : sProp 𝕄)
        ⊢ iprop((∃ r, prngReg c r) ∗ emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (Ve1 m) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (Ve2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's two regions, in order. -/
abbrev segs : List (Pipeline.Seg (pcfgs (F := F)) adm (pdats m) () defs₀ 𝒱₀ L lv) :=
  [ .region (reg0 m), .region (reg1 m) ]
theorem main_run (c : Dev nD) : main (F := F) c = Pipeline.Seg.run (segs m) :=
  main_segs adm (pdats m) () 𝒱₀ L lv (reg0 m) (reg1 m) c

set_option backward.isDefEq.respectTransparency.types false in
/-- THE RUN. From any memory with zero counters every weakly fair execution of the program terminates, nothing
    faulting, and in every final state the result array holds what the second region's write-backs leave
    (the fold of its flushed blocks) and each argument array holds its launch contents. -/
theorem run_all : θ_run defs (onTc (τ := τ) (main (F := F))) ⟨m, fun _ => 0, ρ⟩ (fun r => ∀ c : Dev nD,
      r.2.mem ((c.tc : Thread nD τ).loc main_v1) = (dat1 (Ve1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v1 (by decide))).trans (W4_main_v1 m c),
       (h c _ (mem_uc main_arg0 (by decide))).trans (W4_main_arg0 m c),
       (h c _ (mem_uc main_arg1 (by decide))).trans (W4_main_arg1 m c),
       (h c _ (mem_uc main_arg2 (by decide))).trans (W4_main_arg2 m c)⟩)

end Cert.Kernel.Frm

end
-- ==== Proof.KiRegion0.lean ====
/-
  The first matrix product as a pipeline region: at every grid point t the body reads the row block t of x
  (1024 rows) and the whole of W, and stores into the output block t ONE value, the body's arithmetic of those two
  blocks. This module states that per point, for any float instance: what each staging buffer holds before and
  after the body, and the body's triple.
-/
import proofs.«180485_j6957847019676_2_alg».proof.Proof.Gen.KernelIdeal.Launch
import proofs.«180485_j6957847019676_2_alg».proof.Proof.Gen.KernelIdeal.Skeleton
import proofs.«180485_j6957847019676_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
-- the core's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of x is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- W, fetched once, is in its staging buffer at every point: its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's three accesses: each a whole staging buffer. -/
abbrev r0_0 : Rect S1024x2048 := Rect.unit (s := S1024x2048) ![0, 0] S1024x2048.size inb_S1024x2048_S1024x2048_0_0
abbrev r0_1 : Rect S2048x512 := Rect.unit (s := S2048x512) ![0, 0] S2048x512.size inb_S2048x512_S2048x512_0_0
abbrev r0_2 : Rect S1024x512 := Rect.unit (s := S1024x512) ![0, 0] S1024x512.size inb_S1024x512_S1024x512_0_0

/-- What the body leaves in the output's staging buffer: its one store, of the body's arithmetic of the two blocks. -/
def out0_2 (x0 : Vec F S1024x2048 .f32) (x1 : Vec F S2048x512 .f32) : Vec F S1024x512 .f32 :=
  View.canon [⟨r0_2, k0_pay1 (View.ld x0 r0_0) (View.ld x1 r0_1)⟩]

/-- That store covers the buffer. -/
theorem cover0_2 (p0 : Vec F S1024x512 .f32) (y : S1024x512.Idx) :
    ∃ pc ∈ ([⟨r0_2, p0⟩] : List (View.Piece (Elt F) S1024x512 .f32)), y ∈ pc.1.set :=
  View.cover_of_tiled [⟨r0_2, p0⟩] S1024x512.size (by rfl) y

set_option maxHeartbeats 1000000 in
/-- The body on whole staging buffers, the inputs' at contents x0 and x1 and the output's at anything, runs to the
    continuation with the inputs' as they were and the output's at out0_2 x0 x1. -/
theorem sound_kernel0 (c : Dev nD) (E : Set ℕ) (i : grid0.Coords) (arg1 : Memref sig .tc .vmem S1024x2048 .f32) (harg1 : arg1.IsWhole)
    (arg2 : Memref sig .tc .vmem S2048x512 .f32) (harg2 : arg2.IsWhole) (arg3 : Memref sig .tc .vmem S1024x512 .f32) (harg3 : arg3.IsWhole)
    (x0 : Vec F S1024x2048 .f32) (x1 : Vec F S2048x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul1_kernel i arg1 harg1 arg2 harg2 arg3 harg3) K := by
  simp only [cc0__matmul1_kernel_eq_skeleton]; unfold cc0__matmul1_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the region on core c: the arrays as the region finds them; after the body at point t the
    inputs' buffers at their blocks and the output's at out0_2 of them; nothing carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Frm

end
-- ==== Proof.KiRegion1Base.lean ====
/-
  The second matrix product as a pipeline region over a 16 x 16 grid (row block i, column block k of adj): what the
  three cases of a grid point share. At k = 0 the running sum kept in the scratch buffer is reset, at every point the
  product of the adj tile with the matching 1024 rows of h is added to it, and at k = 15 it is stored into the output
  block i; at the other points the output's staging buffer is left alone and not written back.
-/
import proofs.«180485_j6957847019676_2_alg».proof.Proof.Gen.KernelIdeal.Launch
import proofs.«180485_j6957847019676_2_alg».proof.Proof.Gen.KernelIdeal.Skeleton
import proofs.«180485_j6957847019676_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The reset's condition, k = 0, from the grid coordinates. -/
abbrev cond1_0 (i : grid1.Coords) : Prop := (Scalar.cmpi .ne (Scalar.extui (Scalar.cmpi .eq (BitVec.ofNat 32 (i 1).val) 0#32)) 0#32) = 1#1
/-- It holds at the points = 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)

/-- The final store's condition, k = 15. -/
abbrev cond1_1 (i : grid1.Coords) : Prop := k1_cond2 i = 1#1
/-- It holds at the points = 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-- The two inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Where k is not 15 the output is idle and not written back; at k = 15 it is live. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_2_C : ∀ t : Fin cfg1.N, ¬cond1_0 (grid1.coords t) → cond1_1 (grid1.coords t) → cfg1.idle 2 (grid1.coords t) = false := by decide +kernel

/-- One staging buffer of the output window, through which its contents are stated. -/
abbrev VO1_2 : View sig .tc .vmem S1024x512 .f32 := (Memref.whole cc1_stg2_0 : Memref sig .tc .vmem S1024x512 .f32).view
/-- Each window's current staging memref at point t, as the pipeline passes it, and its wholeness. -/
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .f32 := win1_2.stage (cfg1.slots t 2)
abbrev hs1_2 (t : Fin cfg1.N) : (ms1_2 t).IsWhole := hstage1_2 ((cfg1.slots t 2).cast nbuf1_2)
/-- The scratch buffer holding the running sum, and its view. -/
abbrev scM1 : Memref sig .tc .vmem S1024x512 .f32 := Memref.whole cc1_scratch0
abbrev VS1 : View sig .tc .vmem S1024x512 .f32 := scM1.view

/-- The core's scoped buffers other than this region's staging buffers and its scratch: the first region's five
    staging buffers, each whole at some contents. The body never touches them. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- What the region is handed besides its windows: those five buffers, the scratch at some contents, and the
    generator register at some state. -/
theorem PhiA1_split (c : Dev nD) :
    (Pipeline.ΦA spec1 c : sProp 𝕄) ⊢ iprop(others1 (F := F) c ∗ (∃ d, owns (c : Thread nD τ) scM1 fullShare d) ∗ (∃ r, prngReg c r)) := by
  unfold Pipeline.ΦA others1; rw [scopedRest1_eq]; simp only [scM1, owns_whole]
  iintro ⟨⟨A, B, C, D, E, S⟩, P⟩
  isplitl [A B C D E]
  · isplitl [A]; · iexact A
    isplitl [B]; · iexact B
    isplitl [C]; · iexact C
    isplitl [D]; · iexact D
    iexact E
  isplitl [S]; · iexact S
  iexact P

/-- And back. -/
theorem PhiA1_join (c : Dev nD) :
    iprop(others1 (F := F) c ∗ (∃ d, owns (c : Thread nD τ) scM1 fullShare d) ∗ (∃ r, prngReg c r)) ⊢ (Pipeline.ΦA spec1 c : sProp 𝕄) := by
  unfold Pipeline.ΦA others1; rw [scopedRest1_eq]; simp only [scM1, owns_whole]
  iintro ⟨⟨A, B, C, D, E⟩, S, P⟩
  isplitr [P]
  · isplitl [A]; · iexact A
    isplitl [B]; · iexact B
    isplitl [C]; · iexact C
    isplitl [D]; · iexact D
    isplitl [E]; · iexact E
    iexact S
  iexact P

end Cert.KernelIdeal.Frm

end
-- ==== Proof.KiRegion1RunA.lean ====
/-
  The body at a point with k = 0: the scratch is reset, then the tile's product is added; the output is left alone.
-/
import proofs.«180485_j6957847019676_2_alg».proof.Proof.KiRegion1Base
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the scratch at a point with k = 0 (the output gets none), with the body's
    triple: inputs at their contents, the idle output handed back untouched, the scratch entered at anything. -/
noncomputable def kernelRun1_A (c : Dev nD) (i : grid1.Coords) (arg2 : Memref sig .tc .vmem S1024x1024 .f32) (harg2 : arg2.IsWhole) (arg3 : Memref sig .tc .vmem S16384x512 .f32) (harg3 : arg3.IsWhole) (arg4 : Memref sig .tc .vmem S1024x512 .f32) (harg4 : arg4.IsWhole) (arg5 : Memref sig .tc .vmem S1024x512 .f32) (harg5 : arg5.IsWhole) (hc0 : cond1_0 i) (hc1 : ¬cond1_1 i)
    (x0 : Vec F S1024x1024 .f32) (x1 : Vec F S16384x512 .f32) :
    Σ' (L2 : List (View.Piece (Elt F) S1024x512 .f32)), { LS : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__matmul2_kernel i arg2 harg2 arg3 harg3 arg4 harg4 arg5 harg5) K } := by
  refine ⟨[], ?_, fun xi2 E K => ?run⟩
  case run =>
    simp only [cc1__matmul2_kernel_eq_skeleton]; unfold cc1__matmul2_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Frm

end
-- ==== Proof.KiRegion1RunB.lean ====
/-
  The body at a point with 0 < k < 15: the tile's product is added to the running sum; the output is left alone.
-/
import proofs.«180485_j6957847019676_2_alg».proof.Proof.KiRegion1RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's store leaves in the scratch at a point with 0 < k < 15, with the body's triple: inputs at
    their contents, the idle output handed back untouched, the scratch entered at the running sum so far. -/
noncomputable def kernelRun1_B (c : Dev nD) (i : grid1.Coords) (arg2 : Memref sig .tc .vmem S1024x1024 .f32) (harg2 : arg2.IsWhole) (arg3 : Memref sig .tc .vmem S16384x512 .f32) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : ¬cond1_1 i)
    (x0 : Vec F S1024x1024 .f32) (x1 : Vec F S16384x512 .f32) (xs : Vec F S1024x512 .f32) :
    Σ' (L2 : List (View.Piece (Elt F) S1024x512 .f32)), { LS : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__matmul2_kernel i arg2 harg2 arg3 harg3 arg4 harg4 arg5 harg5) K } := by
  refine ⟨[], ?_, fun xi2 E K => ?run⟩
  case run =>
    simp only [cc1__matmul2_kernel_eq_skeleton]; unfold cc1__matmul2_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Frm

end
-- ==== Proof.KiRegion1RunC.lean ====
/-
  The body at a point with k = 15: the last tile's product is added and the finished sum is stored into the output.
-/
import proofs.«180485_j6957847019676_2_alg».proof.Proof.KiRegion1RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the output and in the scratch at a point with k = 15, with the body's
    triple: inputs at their contents, the output entered at anything, the scratch at the running sum so far. -/
noncomputable def kernelRun1_C (c : Dev nD) (i : grid1.Coords) (arg2 : Memref sig .tc .vmem S1024x1024 .f32) (harg2 : arg2.IsWhole) (arg3 : Memref sig .tc .vmem S16384x512 .f32) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x1024 .f32) (x1 : Vec F S16384x512 .f32) (xs : Vec F S1024x512 .f32) :
    Σ' (L2 : List (View.Piece (Elt F) S1024x512 .f32)), { LS : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc1__matmul2_kernel i arg2 harg2 arg3 harg3 arg4 harg4 arg5 harg5) K } := by
  refine ⟨?_, ?_, fun E K => ?run⟩
  case run =>
    simp only [cc1__matmul2_kernel_eq_skeleton]; unfold cc1__matmul2_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Frm

end
-- ==== Proof.KiRegion1.lean ====
/-
  The second matrix product's region, point by point: what each of the three cases leaves in the scratch and in the
  output's staging buffer, the running sum as a recursion over the 256 grid points, the invariant that carries it
  from one point to the next, and the body's triple at every point by cases on k.
-/
import proofs.«180485_j6957847019676_2_alg».proof.Proof.KiRegion1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Case A: what the point leaves in the output's staging buffer (nothing is stored: a placeholder nothing consults), -/
def out1_A_2 (c : Dev nD) (i : grid1.Coords) (arg2 : Memref sig .tc .vmem S1024x1024 .f32) (harg2 : arg2.IsWhole) (arg3 : Memref sig .tc .vmem S16384x512 .f32) (harg3 : arg3.IsWhole) (arg4 : Memref sig .tc .vmem S1024x512 .f32) (harg4 : arg4.IsWhole) (arg5 : Memref sig .tc .vmem S1024x512 .f32) (harg5 : arg5.IsWhole) (hc0 : cond1_0 i) (hc1 : ¬cond1_1 i)
    (x0 : Vec F S1024x1024 .f32) (x1 : Vec F S16384x512 .f32) : Vec F S1024x512 .f32 :=
  VO1_2.read (Elt F) (VO1_2.writes (Elt F) VO1_2.junk (kernelRun1_A c i arg2 harg2 arg3 harg3 arg4 harg4 arg5 harg5 hc0 hc1 x0 x1).1)

/-- its stores into the scratch cover it, -/
theorem scover1_A (c : Dev nD) (i : grid1.Coords) (arg2 : Memref sig .tc .vmem S1024x1024 .f32) (harg2 : arg2.IsWhole) (arg3 : Memref sig .tc .vmem S16384x512 .f32) (harg3 : arg3.IsWhole) (arg4 : Memref sig .tc .vmem S1024x512 .f32) (harg4 : arg4.IsWhole) (arg5 : Memref sig .tc .vmem S1024x512 .f32) (harg5 : arg5.IsWhole) (hc0 : cond1_0 i) (hc1 : ¬cond1_1 i)
    (x0 : Vec F S1024x1024 .f32) (x1 : Vec F S16384x512 .f32) (y : S1024x512.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1024x512.size (by sl_kernel_rfl) y

/-- and what it leaves in the scratch. -/
def sout1_A (c : Dev nD) (i : grid1.Coords) (arg2 : Memref sig .tc .vmem S1024x1024 .f32) (harg2 : arg2.IsWhole) (arg3 : Memref sig .tc .vmem S16384x512 .f32) (harg3 : arg3.IsWhole) (arg4 : Memref sig .tc .vmem S1024x512 .f32) (harg4 : arg4.IsWhole) (arg5 : Memref sig .tc .vmem S1024x512 .f32) (harg5 : arg5.IsWhole) (hc0 : cond1_0 i) (hc1 : ¬cond1_1 i)
    (x0 : Vec F S1024x1024 .f32) (x1 : Vec F S16384x512 .f32) : Vec F S1024x512 .f32 :=
  VS1.read (Elt F) (VS1.writes (Elt F) VS1.junk (kernelRun1_A c i arg2 harg2 arg3 harg3 arg4 harg4 arg5 harg5 hc0 hc1 x0 x1).2.1)

/-- Case B: what the point leaves in the output's staging buffer (nothing is stored: a placeholder nothing consults), -/
def out1_B_2 (c : Dev nD) (i : grid1.Coords) (arg2 : Memref sig .tc .vmem S1024x1024 .f32) (harg2 : arg2.IsWhole) (arg3 : Memref sig .tc .vmem S16384x512 .f32) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : ¬cond1_1 i)
    (x0 : Vec F S1024x1024 .f32) (x1 : Vec F S16384x512 .f32) (xs : Vec F S1024x512 .f32) : Vec F S1024x512 .f32 :=
  VO1_2.read (Elt F) (VO1_2.writes (Elt F) VO1_2.junk (kernelRun1_B c i arg2 harg2 arg3 harg3 arg4 harg4 arg5 harg5 hc0 hc1 x0 x1 xs).1)

/-- its stores into the scratch cover it, -/
theorem scover1_B (c : Dev nD) (i : grid1.Coords) (arg2 : Memref sig .tc .vmem S1024x1024 .f32) (harg2 : arg2.IsWhole) (arg3 : Memref sig .tc .vmem S16384x512 .f32) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : ¬cond1_1 i)
    (x0 : Vec F S1024x1024 .f32) (x1 : Vec F S16384x512 .f32) (xs : Vec F S1024x512 .f32) (y : S1024x512.Idx) :
    ∃ pc ∈ (kernelRun1_B c i arg2 harg2 arg3 harg3 arg4 harg4 arg5 harg5 hc0 hc1 x0 x1 xs).2.1, y ∈ pc.1.set :=
  View.cover_of_tiledL (kernelRun1_B c i arg2 harg2 arg3 harg3 arg4 harg4 arg5 harg5 hc0 hc1 x0 x1 xs).2.1 S1024x512.size (by sl_kernel_rfl) y

/-- and what it leaves in the scratch. -/
def sout1_B (c : Dev nD) (i : grid1.Coords) (arg2 : Memref sig .tc .vmem S1024x1024 .f32) (harg2 : arg2.IsWhole) (arg3 : Memref sig .tc .vmem S16384x512 .f32) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : ¬cond1_1 i)
    (x0 : Vec F S1024x1024 .f32) (x1 : Vec F S16384x512 .f32) (xs : Vec F S1024x512 .f32) : Vec F S1024x512 .f32 :=
  VS1.read (Elt F) (VS1.writes (Elt F) VS1.junk (kernelRun1_B c i arg2 harg2 arg3 harg3 arg4 harg4 arg5 harg5 hc0 hc1 x0 x1 xs).2.1)

/-- Case C: what the point leaves in the output's staging buffer, -/
def out1_C_2 (c : Dev nD) (i : grid1.Coords) (arg2 : Memref sig .tc .vmem S1024x1024 .f32) (harg2 : arg2.IsWhole) (arg3 : Memref sig .tc .vmem S16384x512 .f32) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x1024 .f32) (x1 : Vec F S16384x512 .f32) (xs : Vec F S1024x512 .f32) : Vec F S1024x512 .f32 :=
  VO1_2.read (Elt F) (VO1_2.writes (Elt F) VO1_2.junk (kernelRun1_C c i arg2 harg2 arg3 harg3 arg4 harg4 arg5 harg5 hc0 hc1 x0 x1 xs).1)

/-- its stores into the scratch cover it, -/
theorem scover1_C (c : Dev nD) (i : grid1.Coords) (arg2 : Memref sig .tc .vmem S1024x1024 .f32) (harg2 : arg2.IsWhole) (arg3 : Memref sig .tc .vmem S16384x512 .f32) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x1024 .f32) (x1 : Vec F S16384x512 .f32) (xs : Vec F S1024x512 .f32) (y : S1024x512.Idx) :
    ∃ pc ∈ (kernelRun1_C c i arg2 harg2 arg3 harg3 arg4 harg4 arg5 harg5 hc0 hc1 x0 x1 xs).2.1, y ∈ pc.1.set :=
  View.cover_of_tiledL (kernelRun1_C c i arg2 harg2 arg3 harg3 arg4 harg4 arg5 harg5 hc0 hc1 x0 x1 xs).2.1 S1024x512.size (by sl_kernel_rfl) y

/-- and what it leaves in the scratch. -/
def sout1_C (c : Dev nD) (i : grid1.Coords) (arg2 : Memref sig .tc .vmem S1024x1024 .f32) (harg2 : arg2.IsWhole) (arg3 : Memref sig .tc .vmem S16384x512 .f32) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x1024 .f32) (x1 : Vec F S16384x512 .f32) (xs : Vec F S1024x512 .f32) : Vec F S1024x512 .f32 :=
  VS1.read (Elt F) (VS1.writes (Elt F) VS1.junk (kernelRun1_C c i arg2 harg2 arg3 harg3 arg4 harg4 arg5 harg5 hc0 hc1 x0 x1 xs).2.1)

/-- At k = 15 the store into the output covers its buffer. -/
theorem cover1_C_2 (c : Dev nD) (i : grid1.Coords) (arg2 : Memref sig .tc .vmem S1024x1024 .f32) (harg2 : arg2.IsWhole) (arg3 : Memref sig .tc .vmem S16384x512 .f32) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x1024 .f32) (x1 : Vec F S16384x512 .f32) (xs : Vec F S1024x512 .f32) (y : S1024x512.Idx) :
    ∃ pc ∈ (kernelRun1_C c i arg2 harg2 arg3 harg3 arg4 harg4 arg5 harg5 hc0 hc1 x0 x1 xs).1, y ∈ pc.1.set :=
  View.cover_of_tiledL (kernelRun1_C c i arg2 harg2 arg3 harg3 arg4 harg4 arg5 harg5 hc0 hc1 x0 x1 xs).1 S1024x512.size (by sl_kernel_rfl) y

section Region1
-- the core's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adj tile is in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole of h, fetched once, is in its staging buffer at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- THE ACCUMULATION: what the output's staging buffer and the scratch hold after the body at position n — the case
    the position's k selects, run at the point's blocks, the scratch entered at what position n - 1 left. -/
def outsAt1 (c : Dev nD) : (n : ℕ) → n < cfg1.N → Vec F S1024x512 .f32 × Vec F S1024x512 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 16 = 0 then
      if h1 : (n + 1) % 16 = 15 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 16 = 15 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 16 = 0) (h1 : ¬t.val % 16 = 15) :
    outsAt1 V c t.val t.isLt = (out1_A_2 c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t), sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (out1_B_2 c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C_2 c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point what the region was handed; afterwards the
    scratch at the running sum the point before left, beside the buffers the body never touches. -/
def PhiS (c : Dev nD) : (n : ℕ) → n ≤ cfg1.N → sProp 𝕄
  | 0, _ => Pipeline.ΦA spec1 c
  | n + 1, hn => iprop(others1 (F := F) c ∗ owns (c : Thread nD τ) scM1 fullShare ((outsAt1 V c n hn).2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(others1 (F := F) c ∗ owns (c : Thread nD τ) scM1 fullShare ((outsAt1 V c n hn).2) ∗ (∃ r, prngReg c r)) := rfl

theorem PhiS_pos (c : Dev nD) (n : ℕ) (h : n ≤ cfg1.N) (hz : n ≠ 0) :
    PhiS V c n h = iprop(others1 (F := F) c ∗ owns (c : Thread nD τ) scM1 fullShare ((outsAt1 V c (n - 1) (by omega)).2) ∗ (∃ r, prngReg c r)) := by
  cases n with
  | zero => exact absurd rfl hz
  | succ n => rfl

/-- The proof data of the region on core c: the arrays as the region finds them; after the body at point t the
    inputs' buffers at their blocks and the output's at the accumulation's first component; the invariant PhiS. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

end Region1

end Cert.KernelIdeal.Frm

end
-- ==== Proof.KiRegion1Body.lean ====
/-
  The second region's body obligation: at every grid point the body, entered with the invariant and the windows'
  staging buffers, returns them as the proof data says — by cases on whether k is 0, 15 or in between.
-/
import proofs.«180485_j6957847019676_2_alg».proof.Proof.KiRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

set_option maxHeartbeats 4800000 in
/-- The body at any point. The inputs' buffers hold their blocks; k decides the case; the invariant hands the body
    the scratch at the running sum so far (at anything before the first point) and takes it back at this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 256 := lt_of_lt_of_eq t.isLt (show cfg1.N = 256 from N_1)
  by_cases h0 : t.val % 16 = 0
  · by_cases h1 : t.val % 16 = 15
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A; (try dsimp only)
      by_cases hz : t.val = 0
      · rw [PhiS_castSucc V c t, PhiS_zero V c _ _ hz]
        iintro ⟨HΦ, Ho, ⟨%d0, H0⟩, ⟨%d1, H1⟩, ⟨%d2, H2⟩⟩
        ihave HΦ' := (PhiA1_split (F := F) c) $$ HΦ
        icases HΦ' with ⟨Hoth, HS, Hg⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS]; · iexact HS
        iintro ⟨H0, H1, H2, ⟨%es, HS⟩⟩
        isplitl [Hoth HS Hg]
        · isplitl [Hoth]; · iexact Hoth
          isplitl [HS]
          · unfold owns; iexists _; isplitr
            swap; · iexact HS
            ipureintro; exact View.read_writes_of_cover _ _ _ _ _ (scover1_A c _ _ _ _ _ _ _ _ _ _ _ _ _)
          iexact Hg
        isplitl [Ho]; · iexact Ho
        isplitl [H0]; · iexact H0
        isplitl [H1]; · iexact H1
        iexists _; iexact H2
      · rw [PhiS_castSucc V c t, PhiS_pos V c _ _ hz]
        iintro ⟨⟨Hoth, HS, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS]; · iexists _; iexact HS
        iintro ⟨H0, H1, H2, ⟨%es, HS⟩⟩
        isplitl [Hoth HS Hg]
        · isplitl [Hoth]; · iexact Hoth
          isplitl [HS]
          · unfold owns; iexists _; isplitr
            swap; · iexact HS
            ipureintro; exact View.read_writes_of_cover _ _ _ _ _ (scover1_A c _ _ _ _ _ _ _ _ _ _ _ _ _)
          iexact Hg
        isplitl [Ho]; · iexact Ho
        isplitl [H0]; · iexact H0
        isplitl [H1]; · iexact H1
        iexists _; iexact H2
  · by_cases h1 : t.val % 16 = 15
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C; (try dsimp only)
      by_cases hz : t.val = 0
      · exfalso; omega
      · rw [PhiS_castSucc V c t, PhiS_pos V c _ _ hz]
        iintro ⟨⟨Hoth, HS, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS]; · iexact HS
        iintro ⟨H0, H1, ⟨%e2, H2⟩, ⟨%es, HS⟩⟩
        isplitl [Hoth HS Hg]
        · isplitl [Hoth]; · iexact Hoth
          isplitl [HS]
          · unfold owns; iexists _; isplitr
            swap; · iexact HS
            ipureintro; exact View.read_writes_of_cover _ _ _ _ _ (scover1_C c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B; (try dsimp only)
      by_cases hz : t.val = 0
      · exfalso; omega
      · rw [PhiS_castSucc V c t, PhiS_pos V c _ _ hz]
        iintro ⟨⟨Hoth, HS, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS]; · iexact HS
        iintro ⟨H0, H1, H2, ⟨%es, HS⟩⟩
        isplitl [Hoth HS Hg]
        · isplitl [Hoth]; · iexact Hoth
          isplitl [HS]
          · unfold owns; iexists _; isplitr
            swap; · iexact HS
            ipureintro; exact View.read_writes_of_cover _ _ _ _ _ (scover1_B c _ _ _ _ _ _ _ _ _ _ _ _ _ _)
          iexact Hg
        isplitl [Ho]; · iexact Ho
        isplitl [H0]; · iexact H0
        isplitl [H1]; · iexact H1
        iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- With the running sum forgotten, the invariant is again what the region was handed. -/
theorem forget_sum (c : Dev nD) (S : Vec F S1024x512 .f32) :
    iprop(others1 (F := F) c ∗ owns (c : Thread nD τ) scM1 fullShare S ∗ (∃ r, prngReg c r)) ⊢ (Pipeline.ΦA spec1 c : sProp 𝕄) :=
  (show iprop(others1 (F := F) c ∗ owns (c : Thread nD τ) scM1 fullShare S ∗ (∃ r, prngReg c r))
      ⊢ iprop(others1 (F := F) c ∗ (∃ d, owns (c : Thread nD τ) scM1 fullShare d) ∗ (∃ r, prngReg c r)) from by
    iintro ⟨Hoth, HS, Hg⟩
    isplitl [Hoth]; · iexact Hoth
    isplitl [HS]; · iexists _; iexact HS
    iexact Hg).trans (PhiA1_join (F := F) c)

/-- After the last point the invariant gives back what the region was handed. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 256 := N_1; omega)]
  exact forget_sum c _

end Region1

end Cert.KernelIdeal.Frm

end
-- ==== Proof.KiRun.lean ====
/-
  The whole program as two regions in a row: the buffer contents at the launch, between the regions and at the end;
  every weakly fair execution terminates, the result array ends at what the second region's write-backs leave, and
  the three argument arrays end as launched.
-/
import proofs.«180485_j6957847019676_2_alg».proof.Proof.KiRegion0
import proofs.«180485_j6957847019676_2_alg».proof.Proof.KiRegion1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch, -/
abbrev W0 : Dev nD → Valuation τ sig (Elt F) := fun c b => m (c, b)
/-- read at the core's references: what the first region is entered at. -/
abbrev Ve0 : (c : Dev nD) → (b : Ref sig .tc) → Buf (Elt F) ((c : Thread nD τ).loc b) := fun c b => W0 m c b
/-- After the first region: its arrays at what its write-backs leave, every other buffer as launched. -/
def W2 (c : Dev nD) : Valuation τ sig (Elt F) :=
  Pipeline.withArrays spec0 c (W0 m c) fun w => (dat0 (Ve0 m) c).arrAt w cfg0.N
theorem W2_arr (c : Dev nD) (w : Fin cfg0.W) :
    W2 m c (Proc.devRef .tc (Pipeline.arrRef spec0 w)) = (dat0 (Ve0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
/-- The same read at the core's references: what the second region is entered at. -/
abbrev Ve1 : (c : Dev nD) → (b : Ref sig .tc) → Buf (Elt F) ((c : Thread nD τ).loc b) := fun c b => W2 m c b
theorem hF0 (c : Dev nD) (w : Fin cfg0.W) : (dat0 (Ve0 m) c).arrAt w cfg0.N = Ve1 m c (Pipeline.arrRef spec0 w) :=
  (W2_arr m c w).symm
theorem hrest0 (c : Dev nD) : ∀ b, b ∉ Finset.univ.image (Pipeline.arrRef spec0) → Ve1 m c b = Ve0 m c b :=
  fun b hb => W2_of_ne m c b fun w e => hb (Finset.mem_image.mpr ⟨w, Finset.mem_univ _, e⟩)

/-- After the second region: its arrays at what its write-backs leave, every other buffer as it was entered. -/
def W4 (c : Dev nD) : Valuation τ sig (Elt F) :=
  Pipeline.withArrays spec1 c (W2 m c) fun w => (dat1 (Ve1 m) c).arrAt w cfg1.N
theorem W4_arr (c : Dev nD) (w : Fin cfg1.W) :
    W4 m c (Proc.devRef .tc (Pipeline.arrRef spec1 w)) = (dat1 (Ve1 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W2 m c (Proc.devRef .tc b) := by
  unfold W4; exact Pipeline.withArrays_of_ne spec1 c _ _ b hb
abbrev Ve2 : (c : Dev nD) → (b : Ref sig .tc) → Buf (Elt F) ((c : Thread nD τ).loc b) := fun c b => W4 m c b
theorem hF1 (c : Dev nD) (w : Fin cfg1.W) : (dat1 (Ve1 m) c).arrAt w cfg1.N = Ve2 m c (Pipeline.arrRef spec1 w) :=
  (W4_arr m c w).symm
theorem hrest1 (c : Dev nD) : ∀ b, b ∉ Finset.univ.image (Pipeline.arrRef spec1) → Ve2 m c b = Ve1 m c b :=
  fun b hb => W4_of_ne m c b fun w e => hb (Finset.mem_image.mpr ⟨w, Finset.mem_univ _, e⟩)

/-! The arguments end as launched: a region reads an argument through an input window or bypasses it. -/

theorem W4_main_arg0 (c : Dev nD) : W4 m c (Proc.devRef .tc main_arg0) = m ((c : Thread nD τ).loc main_arg0) :=
  calc W4 m c (Proc.devRef .tc main_arg0)
    _ = W2 m c (Proc.devRef .tc main_arg0) := W4_of_ne m c main_arg0 (by decide)
    _ = W0 m c (Proc.devRef .tc main_arg0) := (W2_arr m c 0).trans (((dat0 (Ve0 m) c).arrAt_in 0 rfl _).trans (A_eq0 (Ve0 m) c 0))
    _ = m ((c : Thread nD τ).loc main_arg0) := rfl
theorem W4_main_arg2 (c : Dev nD) : W4 m c (Proc.devRef .tc main_arg2) = m ((c : Thread nD τ).loc main_arg2) :=
  calc W4 m c (Proc.devRef .tc main_arg2)
    _ = W2 m c (Proc.devRef .tc main_arg2) := W4_of_ne m c main_arg2 (by decide)
    _ = W0 m c (Proc.devRef .tc main_arg2) := (W2_arr m c 1).trans (((dat0 (Ve0 m) c).arrAt_in 1 rfl _).trans (A_eq0 (Ve0 m) c 1))
    _ = m ((c : Thread nD τ).loc main_arg2) := rfl
theorem W4_main_arg1 (c : Dev nD) : W4 m c (Proc.devRef .tc main_arg1) = m ((c : Thread nD τ).loc main_arg1) :=
  calc W4 m c (Proc.devRef .tc main_arg1)
    _ = Ve1 m c main_arg1 := (W4_arr m c 0).trans (((dat1 (Ve1 m) c).arrAt_in 0 rfl _).trans (A_eq1 (Ve1 m) c 0))
    _ = W0 m c (Proc.devRef .tc main_arg1) := W2_of_ne m c main_arg1 (by decide)
    _ = m ((c : Thread nD τ).loc main_arg1) := rfl
/-- The result array ends at what the second region's write-backs leave in it. -/
theorem W4_main_v1 (c : Dev nD) : W4 m c (Proc.devRef .tc main_v1) = (dat1 (Ve1 m) c).arrAt 2 cfg1.N := W4_arr m c 2
/-- The second region finds in h's array what the first region's write-backs left there. -/
theorem Ve1_main_v0 (c : Dev nD) : Ve1 m c main_v0 = (dat0 (Ve0 m) c).arrAt 2 cfg0.N := W2_arr m c 2
/-- And it finds adj as launched. -/
theorem Ve1_main_arg1 (c : Dev nD) : Ve1 m c main_arg1 = m ((c : Thread nD τ).loc main_arg1) :=
  (W2_of_ne m c main_arg1 (by decide)).trans rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Ve0 m) c
  | ⟨1, _⟩ => fun c => dat1 (Ve1 m) c
abbrev 𝒱₀ : Variants := Variants.none
abbrev L : GSem nD τ sig → Finset Unit := fun _ => ∅
abbrev lv : GSem nD τ sig → Unit → ℕ := fun _ _ => 0
/-- What rides beside the buffers through both regions: the generator register at some state, nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the final contents, the generator register at some state. -/
abbrev Tₙ (c : Dev nD) : sProp 𝕄 := iprop(StableHlo.held (c : Thread nD τ) (Pipeline.ucRefs τ sig) (W4 m c) ∗ ∃ r, prngReg c r)

set_option backward.isDefEq.respectTransparency.types false in
/-- Region 0 over the thread state: entered from every unscoped buffer at W0, left at W2. Its arrays are split
    out of the unscoped buffers at entry and put back at their final contents at exit; the generator register goes
    into the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Ve1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W2, left at W4. Its arrays are split
    out of the unscoped buffers at entry and put back at their final contents at exit; the generator register goes
    into the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h2 : (Pipeline.ΦA spec1 c : sProp 𝕄)
        ⊢ iprop((∃ r, prngReg c r) ∗ emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (Ve1 m) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (Ve2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's two regions, in order. -/
abbrev segs : List (Pipeline.Seg (pcfgs (F := F)) adm (pdats m) () defs₀ 𝒱₀ L lv) :=
  [ .region (reg0 m), .region (reg1 m) ]
theorem main_run (c : Dev nD) : main (F := F) c = Pipeline.Seg.run (segs m) :=
  main_segs adm (pdats m) () 𝒱₀ L lv (reg0 m) (reg1 m) c

set_option backward.isDefEq.respectTransparency.types false in
/-- THE RUN. From any memory with zero counters every weakly fair execution of the program terminates, nothing
    faulting, and in every final state the result array holds what the second region's write-backs leave
    (the fold of its flushed blocks) and each argument array holds its launch contents. -/
theorem run_all : θ_run defs (onTc (τ := τ) (main (F := F))) ⟨m, fun _ => 0, ρ⟩ (fun r => ∀ c : Dev nD,
      r.2.mem ((c.tc : Thread nD τ).loc main_v1) = (dat1 (Ve1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v1 (by decide))).trans (W4_main_v1 m c),
       (h c _ (mem_uc main_arg0 (by decide))).trans (W4_main_arg0 m c),
       (h c _ (mem_uc main_arg1 (by decide))).trans (W4_main_arg1 m c),
       (h c _ (mem_uc main_arg2 (by decide))).trans (W4_main_arg2 m c)⟩)

end Cert.KernelIdeal.Frm

end
-- ==== Proof.KiPieces.lean ====
/-
  What the second region's cases compute, as values: each point's store into the scratch is ONE step — the body's
  arithmetic of the adj tile, of the 1024 rows of h the point's k selects, and of the running sum it was entered with
  (the zero block at k = 0) — and the block stored into the output at k = 15 is that same value. So the scratch after
  position n is a recursion over the positions, restarted wherever k = 0. The first region's one store is its
  arithmetic of the row block of x and of W. For any float instance.
-/
import proofs.«180485_j6957847019676_2_alg».proof.Proof.KiRegion0
import proofs.«180485_j6957847019676_2_alg».proof.Proof.KiRegion1
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- The 1024 rows of h a point with coordinates i reads: rows 1024 k onward of the whole staged array. -/
abbrev rowsOf (i : grid1.Coords) (x1 : Vec F S16384x512 .f32) : Vec F S1024x512 .f32 :=
  View.ld x1 (Rect.unit (s := S16384x512) (k1_off1 i) S1024x512.size (k1_off1_inb i))

/-- One step of the running sum. -/
abbrev step (i : grid1.Coords) (x0 : Vec F S1024x1024 .f32) (x1 : Vec F S16384x512 .f32) (acc : Vec F S1024x512 .f32) : Vec F S1024x512 .f32 :=
  k1_pay2 x0 (rowsOf i x1) acc

/-- At k = 0 the scratch ends at one step from the zero block: the reset is read back by the accumulation. -/
theorem sout_A_eq (c : Dev nD) (i : grid1.Coords) (arg2 : Memref sig .tc .vmem S1024x1024 .f32) (harg2 : arg2.IsWhole) (arg3 : Memref sig .tc .vmem S16384x512 .f32) (harg3 : arg3.IsWhole) (arg4 : Memref sig .tc .vmem S1024x512 .f32) (harg4 : arg4.IsWhole) (arg5 : Memref sig .tc .vmem S1024x512 .f32) (harg5 : arg5.IsWhole) (hc0 : cond1_0 i) (hc1 : ¬cond1_1 i)
    (x0 : Vec F S1024x1024 .f32) (x1 : Vec F S16384x512 .f32) :
    sout1_A c i arg2 harg2 arg3 harg3 arg4 harg4 arg5 harg5 hc0 hc1 x0 x1 = step i x0 x1 k1_pay1 := by
  unfold sout1_A
  rw [View.read_writes_eq_canon _ _ _ (scover1_A c i arg2 harg2 arg3 harg3 arg4 harg4 arg5 harg5 hc0 hc1 x0 x1)]
  unfold kernelRun1_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x1024) hz]
  rfl

/-- At 0 < k < 15 the scratch ends at one step from what it was entered with. -/
theorem sout_B_eq (c : Dev nD) (i : grid1.Coords) (arg2 : Memref sig .tc .vmem S1024x1024 .f32) (harg2 : arg2.IsWhole) (arg3 : Memref sig .tc .vmem S16384x512 .f32) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : ¬cond1_1 i)
    (x0 : Vec F S1024x1024 .f32) (x1 : Vec F S16384x512 .f32) (xs : Vec F S1024x512 .f32) :
    sout1_B c i arg2 harg2 arg3 harg3 arg4 harg4 arg5 harg5 hc0 hc1 x0 x1 xs = step i x0 x1 xs := by
  unfold sout1_B
  rw [View.read_writes_eq_canon _ _ _ (scover1_B c i arg2 harg2 arg3 harg3 arg4 harg4 arg5 harg5 hc0 hc1 x0 x1 xs)]
  unfold kernelRun1_B
  dsimp only
  sl_unfold_words
  rw [View.canon_unit_zero (S := S1024x512) hz]
  simp only [View.readAt_eq_ld, harg2.read_unread, harg3.read_unread, harg5.read_unread, View.ld_unit_zero (S := S1024x1024) hz, View.ld_unit_zero (S := S1024x512) hz]
  rfl

/-- At k = 15 likewise, -/
theorem sout_C_eq (c : Dev nD) (i : grid1.Coords) (arg2 : Memref sig .tc .vmem S1024x1024 .f32) (harg2 : arg2.IsWhole) (arg3 : Memref sig .tc .vmem S16384x512 .f32) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x1024 .f32) (x1 : Vec F S16384x512 .f32) (xs : Vec F S1024x512 .f32) :
    sout1_C c i arg2 harg2 arg3 harg3 arg4 harg4 arg5 harg5 hc0 hc1 x0 x1 xs = step i x0 x1 xs := by
  unfold sout1_C
  rw [View.read_writes_eq_canon _ _ _ (scover1_C c i arg2 harg2 arg3 harg3 arg4 harg4 arg5 harg5 hc0 hc1 x0 x1 xs)]
  unfold kernelRun1_C
  dsimp only
  sl_unfold_words
  rw [View.canon_unit_zero (S := S1024x512) hz]
  simp only [View.readAt_eq_ld, harg2.read_unread, harg3.read_unread, harg5.read_unread, View.ld_unit_zero (S := S1024x1024) hz, View.ld_unit_zero (S := S1024x512) hz]
  rfl

/-- and the block stored into the output is the finished sum: the scratch read back after that step. -/
theorem out_C_eq (c : Dev nD) (i : grid1.Coords) (arg2 : Memref sig .tc .vmem S1024x1024 .f32) (harg2 : arg2.IsWhole) (arg3 : Memref sig .tc .vmem S16384x512 .f32) (harg3 : arg3.IsWhole) (arg4 : Memref sig .tc .vmem S1024x512 .f32) (harg4 : arg4.IsWhole) (arg5 : Memref sig .tc .vmem S1024x512 .f32) (harg5 : arg5.IsWhole) (hc0 : ¬cond1_0 i) (hc1 : cond1_1 i)
    (x0 : Vec F S1024x1024 .f32) (x1 : Vec F S16384x512 .f32) (xs : Vec F S1024x512 .f32) :
    out1_C_2 c i arg2 harg2 arg3 harg3 arg4 harg4 arg5 harg5 hc0 hc1 x0 x1 xs = step i x0 x1 xs := by
  unfold out1_C_2
  rw [View.read_writes_eq_canon _ _ _ (cover1_C_2 c i arg2 harg2 arg3 harg3 arg4 harg4 arg5 harg5 hc0 hc1 x0 x1 xs)]
  unfold kernelRun1_C
  dsimp only
  sl_unfold_words
  rw [View.canon_unit_zero (S := S1024x512) hz, View.readCov_unit_zero (S := S1024x512) _ hz]
  simp only [View.readAt_eq_ld, harg2.read_unread, harg3.read_unread, harg5.read_unread, View.ld_unit_zero (S := S1024x1024) hz, View.ld_unit_zero (S := S1024x512) hz]
  rfl

/-- The first region's store is the body's arithmetic of its two blocks. -/
theorem out0_2_eq (x0 : Vec F S1024x2048 .f32) (x1 : Vec F S2048x512 .f32) : out0_2 x0 x1 = k0_pay1 x0 x1 := by
  unfold out0_2
  rw [View.canon_unit_zero (S := S1024x512) hz]
  simp only [View.ld_unit_zero (S := S1024x2048) hz, View.ld_unit_zero (S := S2048x512) hz]

section Region1
variable (V : (c : Dev nD) → (b : Ref sig .tc) → Buf (Elt F) ((c : Thread nD τ).loc b))

/-- The running sum after position n: one step from the zero block where k = 0, else one step from the sum after n - 1. -/
def runSum (c : Dev nD) : (n : ℕ) → n < cfg1.N → Vec F S1024x512 .f32
  | 0, h => step (grid1.coords ⟨0, h⟩) (iblk1 V c 0 ⟨0, h⟩) (iblk1 V c 1 ⟨0, h⟩) k1_pay1
  | n + 1, h =>
    if (n + 1) % 16 = 0 then step (grid1.coords ⟨n + 1, h⟩) (iblk1 V c 0 ⟨n + 1, h⟩) (iblk1 V c 1 ⟨n + 1, h⟩) k1_pay1
    else step (grid1.coords ⟨n + 1, h⟩) (iblk1 V c 0 ⟨n + 1, h⟩) (iblk1 V c 1 ⟨n + 1, h⟩) (runSum c n (Nat.lt_of_succ_lt h))

theorem runSum_zero (c : Dev nD) (h : 0 < cfg1.N) :
    runSum V c 0 h = step (grid1.coords ⟨0, h⟩) (iblk1 V c 0 ⟨0, h⟩) (iblk1 V c 1 ⟨0, h⟩) k1_pay1 := rfl
theorem runSum_reset (c : Dev nD) (n : ℕ) (h : n + 1 < cfg1.N) (h0 : (n + 1) % 16 = 0) :
    runSum V c (n + 1) h = step (grid1.coords ⟨n + 1, h⟩) (iblk1 V c 0 ⟨n + 1, h⟩) (iblk1 V c 1 ⟨n + 1, h⟩) k1_pay1 := by
  rw [runSum, if_pos h0]
theorem runSum_step (c : Dev nD) (n : ℕ) (h : n + 1 < cfg1.N) (h0 : ¬(n + 1) % 16 = 0) :
    runSum V c (n + 1) h = step (grid1.coords ⟨n + 1, h⟩) (iblk1 V c 0 ⟨n + 1, h⟩) (iblk1 V c 1 ⟨n + 1, h⟩) (runSum V c n (Nat.lt_of_succ_lt h)) := by
  rw [runSum, if_neg h0]

/-- The accumulation's case equations at a successor position, the position before written as n. -/
theorem outsAt1_succ_A (c : Dev nD) (n : ℕ) (h : n + 1 < cfg1.N) (h0 : (n + 1) % 16 = 0) (h1 : ¬(n + 1) % 16 = 15) :
    outsAt1 V c (n + 1) h = (out1_A_2 c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) scM1 (Memref.isWhole_whole _) ((hcond1_0 ⟨n + 1, h⟩).mpr h0) (fun hh => h1 ((hcond1_1 ⟨n + 1, h⟩).mp hh)) (iblk1 V c 0 ⟨n + 1, h⟩) (iblk1 V c 1 ⟨n + 1, h⟩), sout1_A c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) scM1 (Memref.isWhole_whole _) ((hcond1_0 ⟨n + 1, h⟩).mpr h0) (fun hh => h1 ((hcond1_1 ⟨n + 1, h⟩).mp hh)) (iblk1 V c 0 ⟨n + 1, h⟩) (iblk1 V c 1 ⟨n + 1, h⟩)) :=
  (dif_pos h0).trans ((dif_neg h1).trans rfl)
theorem outsAt1_succ_B (c : Dev nD) (n : ℕ) (h : n + 1 < cfg1.N) (h0 : ¬(n + 1) % 16 = 0) (h1 : ¬(n + 1) % 16 = 15) :
    outsAt1 V c (n + 1) h = (out1_B_2 c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) scM1 (Memref.isWhole_whole _) (fun hh => h0 ((hcond1_0 ⟨n + 1, h⟩).mp hh)) (fun hh => h1 ((hcond1_1 ⟨n + 1, h⟩).mp hh)) (iblk1 V c 0 ⟨n + 1, h⟩) (iblk1 V c 1 ⟨n + 1, h⟩) (outsAt1 V c n (Nat.lt_of_succ_lt h)).2, sout1_B c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) scM1 (Memref.isWhole_whole _) (fun hh => h0 ((hcond1_0 ⟨n + 1, h⟩).mp hh)) (fun hh => h1 ((hcond1_1 ⟨n + 1, h⟩).mp hh)) (iblk1 V c 0 ⟨n + 1, h⟩) (iblk1 V c 1 ⟨n + 1, h⟩) (outsAt1 V c n (Nat.lt_of_succ_lt h)).2) :=
  (dif_neg h0).trans ((dif_neg h1).trans rfl)
theorem outsAt1_succ_C (c : Dev nD) (n : ℕ) (h : n + 1 < cfg1.N) (h0 : ¬(n + 1) % 16 = 0) (h1 : (n + 1) % 16 = 15) :
    outsAt1 V c (n + 1) h = (out1_C_2 c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) scM1 (Memref.isWhole_whole _) (fun hh => h0 ((hcond1_0 ⟨n + 1, h⟩).mp hh)) ((hcond1_1 ⟨n + 1, h⟩).mpr h1) (iblk1 V c 0 ⟨n + 1, h⟩) (iblk1 V c 1 ⟨n + 1, h⟩) (outsAt1 V c n (Nat.lt_of_succ_lt h)).2, sout1_C c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) scM1 (Memref.isWhole_whole _) (fun hh => h0 ((hcond1_0 ⟨n + 1, h⟩).mp hh)) ((hcond1_1 ⟨n + 1, h⟩).mpr h1) (iblk1 V c 0 ⟨n + 1, h⟩) (iblk1 V c 1 ⟨n + 1, h⟩) (outsAt1 V c n (Nat.lt_of_succ_lt h)).2) :=
  (dif_neg h0).trans ((dif_pos h1).trans rfl)

/-- The components of a pair that is known by an equation. -/
theorem snd_of_eq {α β : Type} {p : α × β} {a : α} {b : β} (h : p = (a, b)) : p.2 = b := by subst h; rfl
theorem fst_of_eq {α β : Type} {p : α × β} {a : α} {b : β} (h : p = (a, b)) : p.1 = a := by subst h; rfl

/-- The scratch component of the accumulation, case by case. -/
theorem scratch_zero (c : Dev nD) (h : 0 < cfg1.N) (h0 : (⟨0, h⟩ : Fin cfg1.N).val % 16 = 0) (h1 : ¬(⟨0, h⟩ : Fin cfg1.N).val % 16 = 15) :
    (outsAt1 V c 0 h).2 = sout1_A c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) scM1 (Memref.isWhole_whole _) ((hcond1_0 ⟨0, h⟩).mpr h0) (fun hh => h1 ((hcond1_1 ⟨0, h⟩).mp hh)) (iblk1 V c 0 ⟨0, h⟩) (iblk1 V c 1 ⟨0, h⟩) :=
  snd_of_eq (outsAt1_A V c ⟨0, h⟩ h0 h1)
theorem scratch_succ_A (c : Dev nD) (n : ℕ) (h : n + 1 < cfg1.N) (h0 : (n + 1) % 16 = 0) (h1 : ¬(n + 1) % 16 = 15) :
    (outsAt1 V c (n + 1) h).2 = sout1_A c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) scM1 (Memref.isWhole_whole _) ((hcond1_0 ⟨n + 1, h⟩).mpr h0) (fun hh => h1 ((hcond1_1 ⟨n + 1, h⟩).mp hh)) (iblk1 V c 0 ⟨n + 1, h⟩) (iblk1 V c 1 ⟨n + 1, h⟩) :=
  snd_of_eq (outsAt1_succ_A V c n h h0 h1)
theorem scratch_succ_B (c : Dev nD) (n : ℕ) (h : n + 1 < cfg1.N) (h0 : ¬(n + 1) % 16 = 0) (h1 : ¬(n + 1) % 16 = 15) :
    (outsAt1 V c (n + 1) h).2 = sout1_B c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) scM1 (Memref.isWhole_whole _) (fun hh => h0 ((hcond1_0 ⟨n + 1, h⟩).mp hh)) (fun hh => h1 ((hcond1_1 ⟨n + 1, h⟩).mp hh)) (iblk1 V c 0 ⟨n + 1, h⟩) (iblk1 V c 1 ⟨n + 1, h⟩) (outsAt1 V c n (Nat.lt_of_succ_lt h)).2 :=
  snd_of_eq (outsAt1_succ_B V c n h h0 h1)
theorem scratch_succ_C (c : Dev nD) (n : ℕ) (h : n + 1 < cfg1.N) (h0 : ¬(n + 1) % 16 = 0) (h1 : (n + 1) % 16 = 15) :
    (outsAt1 V c (n + 1) h).2 = sout1_C c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) scM1 (Memref.isWhole_whole _) (fun hh => h0 ((hcond1_0 ⟨n + 1, h⟩).mp hh)) ((hcond1_1 ⟨n + 1, h⟩).mpr h1) (iblk1 V c 0 ⟨n + 1, h⟩) (iblk1 V c 1 ⟨n + 1, h⟩) (outsAt1 V c n (Nat.lt_of_succ_lt h)).2 :=
  snd_of_eq (outsAt1_succ_C V c n h h0 h1)
theorem output_succ_C (c : Dev nD) (n : ℕ) (h : n + 1 < cfg1.N) (h0 : ¬(n + 1) % 16 = 0) (h1 : (n + 1) % 16 = 15) :
    (outsAt1 V c (n + 1) h).1 = out1_C_2 c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) scM1 (Memref.isWhole_whole _) (fun hh => h0 ((hcond1_0 ⟨n + 1, h⟩).mp hh)) ((hcond1_1 ⟨n + 1, h⟩).mpr h1) (iblk1 V c 0 ⟨n + 1, h⟩) (iblk1 V c 1 ⟨n + 1, h⟩) (outsAt1 V c n (Nat.lt_of_succ_lt h)).2 :=
  fst_of_eq (outsAt1_succ_C V c n h h0 h1)

/-- What the scratch holds after position n IS the running sum: by induction on the position. -/
theorem scratch_eq (c : Dev nD) (n : ℕ) : ∀ (h : n < cfg1.N), (outsAt1 V c n h).2 = runSum V c n h := by
  induction n with
  | zero =>
    intro h
    have h0 : (⟨0, h⟩ : Fin cfg1.N).val % 16 = 0 := Nat.zero_mod _
    have h1 : ¬(⟨0, h⟩ : Fin cfg1.N).val % 16 = 15 := (show ¬(0 % 16 = 15) by decide)
    exact (scratch_zero V c h h0 h1).trans ((sout_A_eq c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) scM1 (Memref.isWhole_whole _) ((hcond1_0 ⟨0, h⟩).mpr h0) (fun hh => h1 ((hcond1_1 ⟨0, h⟩).mp hh)) (iblk1 V c 0 ⟨0, h⟩) (iblk1 V c 1 ⟨0, h⟩)).trans (runSum_zero V c h).symm)
  | succ n ih =>
    intro h
    by_cases h0 : (n + 1) % 16 = 0
    · have h1 : ¬(n + 1) % 16 = 15 := by omega
      exact (scratch_succ_A V c n h h0 h1).trans ((sout_A_eq c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) scM1 (Memref.isWhole_whole _) ((hcond1_0 ⟨n + 1, h⟩).mpr h0) (fun hh => h1 ((hcond1_1 ⟨n + 1, h⟩).mp hh)) (iblk1 V c 0 ⟨n + 1, h⟩) (iblk1 V c 1 ⟨n + 1, h⟩)).trans (runSum_reset V c n h h0).symm)
    · by_cases h1 : (n + 1) % 16 = 15
      · exact (scratch_succ_C V c n h h0 h1).trans ((sout_C_eq c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) scM1 (Memref.isWhole_whole _) (fun hh => h0 ((hcond1_0 ⟨n + 1, h⟩).mp hh)) ((hcond1_1 ⟨n + 1, h⟩).mpr h1) (iblk1 V c 0 ⟨n + 1, h⟩) (iblk1 V c 1 ⟨n + 1, h⟩) (outsAt1 V c n (Nat.lt_of_succ_lt h)).2).trans
          ((congrArg (step (grid1.coords ⟨n + 1, h⟩) (iblk1 V c 0 ⟨n + 1, h⟩) (iblk1 V c 1 ⟨n + 1, h⟩)) (ih (Nat.lt_of_succ_lt h))).trans (runSum_step V c n h h0).symm))
      · exact (scratch_succ_B V c n h h0 h1).trans ((sout_B_eq c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) scM1 (Memref.isWhole_whole _) (fun hh => h0 ((hcond1_0 ⟨n + 1, h⟩).mp hh)) (fun hh => h1 ((hcond1_1 ⟨n + 1, h⟩).mp hh)) (iblk1 V c 0 ⟨n + 1, h⟩) (iblk1 V c 1 ⟨n + 1, h⟩) (outsAt1 V c n (Nat.lt_of_succ_lt h)).2).trans
          ((congrArg (step (grid1.coords ⟨n + 1, h⟩) (iblk1 V c 0 ⟨n + 1, h⟩) (iblk1 V c 1 ⟨n + 1, h⟩)) (ih (Nat.lt_of_succ_lt h))).trans (runSum_step V c n h h0).symm))

/-- At a position with k = 15 the output's staging buffer holds the running sum too. -/
theorem output_eq (c : Dev nD) (n : ℕ) (h : n < cfg1.N) (h1 : n % 16 = 15) : (outsAt1 V c n h).1 = runSum V c n h := by
  cases n with
  | zero => exact absurd h1 (by decide)
  | succ n =>
    have h0 : ¬(n + 1) % 16 = 0 := by omega
    exact (output_succ_C V c n h h0 h1).trans ((out_C_eq c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) scM1 (Memref.isWhole_whole _) (fun hh => h0 ((hcond1_0 ⟨n + 1, h⟩).mp hh)) ((hcond1_1 ⟨n + 1, h⟩).mpr h1) (iblk1 V c 0 ⟨n + 1, h⟩) (iblk1 V c 1 ⟨n + 1, h⟩) (outsAt1 V c n (Nat.lt_of_succ_lt h)).2).trans
      ((congrArg (step (grid1.coords ⟨n + 1, h⟩) (iblk1 V c 0 ⟨n + 1, h⟩) (iblk1 V c 1 ⟨n + 1, h⟩)) (scratch_eq V c n (Nat.lt_of_succ_lt h))).trans (runSum_step V c n h h0).symm))

end Region1

end Cert.KernelIdeal.Frm

end
-- ==== Proof.LibPlainProduct.lean ====
/-
  A plain matrix product read at an entry. Dimension numbers that contract the left operand's second axis with the
  right operand's first, with no batch axis — M×K by K×N — make both the device's matrix unit accumulating into zero
  and the host's general contraction, on the extended reals, the textbook sum: entry (i, j) of the product is the sum
  over k < K of A(i, k) · B(k, j). Nothing else is left of either operation there: no accumulator, no rounding, no
  order of summation. The statements hold for ANY record with those dimension numbers, whatever its name and extents.
-/
import Idealize.ShloMosaic.PureOps.Ideal.Laws
import Idealize.ShloMosaic.Lib.ValueIdx

noncomputable section

namespace Cert.Lib.PlainProduct

open Idealize.ShloMosaic Idealize.ShloMosaic.ValueIdx
open scoped BigOperators

variable {M K N : ℕ} (d : DotDims ⟨2, ![M, K]⟩ ⟨2, ![K, N]⟩ ⟨2, ![M, N]⟩)

/-- The dimension numbers of a plain product: the left operand's axis 1 is contracted with the right operand's axis 0;
    the left operand's axis 0 and the right operand's axis 1 are kept, in this order; there is no batch axis. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The left operand's row coordinate is the result's row coordinate. -/
theorem lhsIdx_row (h : IsPlain d) (j : (⟨2, ![M, N]⟩ : Shape).Idx) (q : d.contr.Idx) :
    (d.lhsIdx j q 0).val = (j 0).val := by
  unfold DotDims.lhsIdx
  rw [dif_neg (show ¬ (0 : Fin (⟨2, ![M, K]⟩ : Shape).rank) ∈ d.lhsBatch by rw [h.lb]; simp),
    dif_pos (show (0 : Fin (⟨2, ![M, K]⟩ : Shape).rank) ∈ d.lhsNonContracting by rw [h.ln]; simp)]
  simp only [Fin.val_cast]
  have key : ∀ (p p' : ℕ) (hp : p < (⟨2, ![M, N]⟩ : Shape).rank) (hp' : p' < (⟨2, ![M, N]⟩ : Shape).rank), p = p' →
      (j ⟨p, hp⟩).val = (j ⟨p', hp'⟩).val := fun p p' hp hp' e => by subst e; rfl
  exact key _ 0 _ Nat.two_pos (by simp [h.lb, h.ln])

/-- The right operand's column coordinate is the result's column coordinate. -/
theorem rhsIdx_col (h : IsPlain d) (j : (⟨2, ![M, N]⟩ : Shape).Idx) (q : d.contr.Idx) :
    (d.rhsIdx j q 1).val = (j 1).val := by
  unfold DotDims.rhsIdx
  rw [dif_neg (show ¬ (1 : Fin (⟨2, ![K, N]⟩ : Shape).rank) ∈ d.rhsBatch by rw [h.rb]; simp),
    dif_pos (show (1 : Fin (⟨2, ![K, N]⟩ : Shape).rank) ∈ d.rhsNonContracting by rw [h.rn]; simp)]
  simp only [Fin.val_cast]
  have key : ∀ (p p' : ℕ) (hp : p < (⟨2, ![M, N]⟩ : Shape).rank) (hp' : p' < (⟨2, ![M, N]⟩ : Shape).rank), p = p' →
      (j ⟨p, hp⟩).val = (j ⟨p', hp'⟩).val := fun p p' hp hp' e => by subst e; rfl
  exact key _ 1 _ Nat.one_lt_two (by simp [h.lb, h.ln, h.rn])

/-- At contraction coordinate `k` the left operand is read at (i, k). -/
theorem lhsIdx_eq (hr : d.contr.rank = 1) (hs : d.contr.size ⟨0, by omega⟩ = K) (h : IsPlain d) (i : Fin M) (j : Fin N) (k : Fin K) :
    d.lhsIdx (ix2 i j) ((contrEquiv1 d K hr hs).symm k) = ix2 i k :=
  funext fun a => Fin.ext (by
    match a with
    | ⟨0, _⟩ => exact lhsIdx_row h _ _
    | ⟨1, _⟩ => exact (d.lhsIdx_val_of_single h.lc _ _).trans (contrEquiv1_symm_val d K hr hs k))

/-- At contraction coordinate `k` the right operand is read at (k, j). -/
theorem rhsIdx_eq (hr : d.contr.rank = 1) (hs : d.contr.size ⟨0, by omega⟩ = K) (h : IsPlain d) (i : Fin M) (j : Fin N) (k : Fin K) :
    d.rhsIdx (ix2 i j) ((contrEquiv1 d K hr hs).symm k) = ix2 k j :=
  funext fun a => Fin.ext (by
    match a with
    | ⟨0, _⟩ => exact (d.rhsIdx_val_of_single h.rc _ _).trans (contrEquiv1_symm_val d K hr hs k)
    | ⟨1, _⟩ => exact rhsIdx_col h _ _)

/-- The matrix unit accumulating into zero: entry (i, j) is the sum over k of A(i, k) · B(k, j). -/
theorem matmul_zero_apply {φ₁ φ₂ : FTy} (h : IsPlain d) (hr : d.contr.rank = 1) (hs : d.contr.size ⟨0, by omega⟩ = K)
    (prec : Option ContractPrecision)
    (A : FVec Ideal ⟨2, ![M, K]⟩ φ₁) (B : FVec Ideal ⟨2, ![K, N]⟩ φ₂) (i : Fin M) (j : Fin N) :
    FloatOps.matmul d prec A B (constant ⟨2, ![M, N]⟩ .f32 0x00000000#32) (ix2 i j)
      = ∑ k : Fin K, A (ix2 i k) * B (ix2 k j) := by
  rw [Ideal.matmul_constant_zero_apply, ← Equiv.sum_comp (contrEquiv1 d K hr hs).symm]
  exact Finset.sum_congr rfl fun k _ => by rw [lhsIdx_eq hr hs h, rhsIdx_eq hr hs h]

/-- The host's general contraction: entry (i, j) is the same sum, whatever the schedule. -/
theorem dotGeneral_apply {φ₁ φ₂ : FTy} (h : IsPlain d) (hr : d.contr.rank = 1) (hs : d.contr.size ⟨0, by omega⟩ = K)
    (prec : Option ContractPrecision) (sched : HostSchedule)
    (A : FVec Ideal ⟨2, ![M, K]⟩ φ₁) (B : FVec Ideal ⟨2, ![K, N]⟩ φ₂) (i : Fin M) (j : Fin N) :
    FloatOps.dotGeneral d prec sched A B (ix2 i j) = ∑ k : Fin K, A (ix2 i k) * B (ix2 k j) := by
  rw [Ideal.dotGeneral_apply, ← Equiv.sum_comp (contrEquiv1 d K hr hs).symm]
  exact Finset.sum_congr rfl fun k _ => by rw [lhsIdx_eq hr hs h, rhsIdx_eq hr hs h]

end Cert.Lib.PlainProduct

end
-- ==== Proof.LibCompensatedSum.lean ====
import Mathlib.Data.EReal.Basic
import Mathlib.Data.EReal.Operations
import Mathlib.Algebra.BigOperators.Fin
import Mathlib.Algebra.BigOperators.Intervals

/-!
# Sums of products of real entries in the extended reals

In the extended reals `x - x = 0` and distributivity fail at the two infinities, but both hold for
entries that are real numbers. This file records the consequences used for a matrix product that is
accumulated in several passes: a pass against a vanishing correction term contributes nothing, a
finite sum of products of reals is again a real, a running sum extended by one term per step is the
partial sum, and a sum over 16384 indices splits into 16 consecutive blocks of 1024.
-/

namespace CompensatedSum

open Finset

/-- a real number minus itself is zero, also after embedding into the extended reals -/
theorem coe_sub_self (r : ℝ) : ((r : EReal) - (r : EReal)) = 0 := by
  rw [← EReal.coe_sub, sub_self, EReal.coe_zero]

/-- `x - x = 0` for an extended real that is a real number (false at `⊤` and `⊥`) -/
theorem sub_self_of_real {x : EReal} (h : ∃ r : ℝ, x = (r : EReal)) : x - x = 0 := by
  obtain ⟨r, rfl⟩ := h
  exact coe_sub_self r

/-- products against a vanishing compensation term drop out when every entry is real -/
theorem three_pass {ι : Type*} [Fintype ι] (a b : ι → EReal) (ha : ∀ k, ∃ r : ℝ, a k = (r : EReal))
    (hb : ∀ k, ∃ r : ℝ, b k = (r : EReal)) :
    ((∑ k, a k * b k) + (∑ k, a k * (b k - b k))) + (∑ k, (a k - a k) * b k) = ∑ k, a k * b k := by
  -- each summand of the second and third sums is a product with `0`
  have h1 : ∀ k, a k * (b k - b k) = 0 := fun k => by rw [sub_self_of_real (hb k), mul_zero]
  have h2 : ∀ k, (a k - a k) * b k = 0 := fun k => by rw [sub_self_of_real (ha k), zero_mul]
  simp only [h1, h2, Finset.sum_const_zero, add_zero]

/-- the embedding of the reals into the extended reals commutes with finite sums -/
theorem coe_finset_sum {ι : Type*} (s : Finset ι) (f : ι → ℝ) :
    ((∑ k ∈ s, f k : ℝ) : EReal) = ∑ k ∈ s, (f k : EReal) := by
  classical
  induction s using Finset.induction_on with
  | empty => simp
  | insert i s hi ih => rw [Finset.sum_insert hi, Finset.sum_insert hi, EReal.coe_add, ih]

/-- a finite sum of products of real entries is a real number -/
theorem sum_mul_real {ι : Type*} [Fintype ι] (a b : ι → EReal) (ha : ∀ k, ∃ r : ℝ, a k = (r : EReal))
    (hb : ∀ k, ∃ r : ℝ, b k = (r : EReal)) :
    ∃ r : ℝ, (∑ k, a k * b k) = (r : EReal) := by
  choose ra hra using ha
  choose rb hrb using hb
  refine ⟨∑ k, ra k * rb k, ?_⟩
  rw [coe_finset_sum]
  exact Finset.sum_congr rfl fun k _ => by rw [hra k, hrb k, EReal.coe_mul]

/-- a running sum started at 0 + p 0 and extended by one term per step is the partial sum -/
theorem acc_eq_sum (p acc : ℕ → EReal) (h0 : acc 0 = 0 + p 0) (hs : ∀ n, acc (n + 1) = acc n + p (n + 1))
    (n : ℕ) : acc n = ∑ k ∈ Finset.range (n + 1), p k := by
  induction n with
  | zero => rw [h0, zero_add, Finset.sum_range_one]
  | succ n ih => rw [hs, ih, Finset.sum_range_succ _ (n + 1)]

/-- a sum over 16384 entries as 16 consecutive blocks of 1024 -/
theorem sum_blocks (f : ℕ → EReal) :
    (∑ K : Fin 16384, f K.val) = ∑ b ∈ Finset.range 16, ∑ j : Fin 1024, f (b * 1024 + j.val) := by
  -- an index below 16 * 1024 is uniquely `b * 1024 + j` with `b < 16` and `j < 1024`
  have e : (∑ K : Fin (16 * 1024), f K.val) = ∑ x : Fin 16 × Fin 1024, f (x.1.val * 1024 + x.2.val) := by
    rw [← (finProdFinEquiv (m := 16) (n := 1024)).sum_comp]
    refine Finset.sum_congr rfl fun x _ => ?_
    rw [finProdFinEquiv_apply_val, Nat.mul_comm, Nat.add_comm]
  rw [show (∑ K : Fin 16384, f K.val) = ∑ K : Fin (16 * 1024), f K.val from rfl, e, Fintype.sum_prod_type,
    Fin.sum_univ_eq_sum_range (fun b => ∑ j : Fin 1024, f (b * 1024 + j.val)) 16]

end CompensatedSum
-- ==== Proof.KiPayload.lean ====
/-
  The bodies' arithmetic at one entry, on the extended reals. A format change is the identity there, so each body's
  three matrix products are: A·B, A·(B − B) and (A − A)·B, each a plain sum over the contracted index. When every entry
  of A and of B is a real number the two correction terms vanish, and the body computes the one product A·B — added,
  in the second kernel, to the running sum it was entered with. The reset block is zero.
-/
import proofs.«180485_j6957847019676_2_alg».proof.Proof.Gen.KernelIdeal.Skeleton
import proofs.«180485_j6957847019676_2_alg».proof.Proof.LibPlainProduct
import proofs.«180485_j6957847019676_2_alg».proof.Proof.LibCompensatedSum
import Idealize.ShloMosaic.Lib.ValueIdx
import Idealize.ShloMosaic.Lib.Pipeline.Value
import Idealize.ShloMosaic.PureOps.Ideal.Laws

noncomputable section

namespace Cert.KernelIdeal.Val

open Idealize.ShloMosaic Idealize.ShloMosaic.ValueIdx Cert.KernelIdeal Cert.KernelIdeal.Gen Cert.Lib.PlainProduct

/-- Both matrix products are plain: rows by columns, no batch axis. -/
theorem plain0 : IsPlain dot_S1024x2048_S2048x512_S1024x512_1_0_0_1_n_n := ⟨rfl, rfl, rfl, rfl, rfl, rfl⟩
theorem plain1 : IsPlain dot_S1024x1024_S1024x512_S1024x512_1_0_0_1_n_n := ⟨rfl, rfl, rfl, rfl, rfl, rfl⟩

/-- The first body at entry (p, q): the product and its two correction terms. -/
theorem pay0_apply (x0 : Vec Ideal S1024x2048 .f32) (x1 : Vec Ideal S2048x512 .f32) (p : Fin 1024) (q : Fin 512) :
    k0_pay1 (F := Ideal) x0 x1 (ix2 p q)
      = ((∑ k : Fin 2048, x0 (ix2 p k) * x1 (ix2 k q)) + (∑ k : Fin 2048, x0 (ix2 p k) * (x1 (ix2 k q) - x1 (ix2 k q))))
        + (∑ k : Fin 2048, (x0 (ix2 p k) - x0 (ix2 p k)) * x1 (ix2 k q)) := by
  unfold k0_pay1
  show (FloatOps.matmul _ none _ _ _ (ix2 p q) + FloatOps.matmul _ none _ _ _ (ix2 p q)) + FloatOps.matmul _ none _ _ _ (ix2 p q) = _
  rw [matmul_zero_apply plain0 rfl rfl, matmul_zero_apply plain0 rfl rfl, matmul_zero_apply plain0 rfl rfl]
  rfl

/-- With real entries the first body computes the plain product. -/
theorem pay0_real (x0 : Vec Ideal S1024x2048 .f32) (x1 : Vec Ideal S2048x512 .f32)
    (h0 : ∀ j, ∃ r : ℝ, x0 j = (r : EReal)) (h1 : ∀ j, ∃ r : ℝ, x1 j = (r : EReal)) (p : Fin 1024) (q : Fin 512) :
    k0_pay1 (F := Ideal) x0 x1 (ix2 p q) = ∑ k : Fin 2048, x0 (ix2 p k) * x1 (ix2 k q) :=
  (pay0_apply x0 x1 p q).trans
    (CompensatedSum.three_pass (fun k : Fin 2048 => x0 (ix2 p k)) (fun k : Fin 2048 => x1 (ix2 k q)) (fun k => h0 _) (fun k => h1 _))

/-- The second body at entry (p, q): the sum it was entered with plus the product and its two correction terms. -/
theorem pay2_apply (x3 : Vec Ideal S1024x1024 .f32) (x7 : Vec Ideal S1024x512 .f32) (x22 : Vec Ideal S1024x512 .f32) (p : Fin 1024) (q : Fin 512) :
    k1_pay2 (F := Ideal) x3 x7 x22 (ix2 p q)
      = x22 (ix2 p q) + (((∑ k : Fin 1024, x3 (ix2 p k) * x7 (ix2 k q)) + (∑ k : Fin 1024, x3 (ix2 p k) * (x7 (ix2 k q) - x7 (ix2 k q))))
        + (∑ k : Fin 1024, (x3 (ix2 p k) - x3 (ix2 p k)) * x7 (ix2 k q))) := by
  unfold k1_pay2
  simp only [shapeCast_self]
  show (x22 (ix2 p q) : Ideal .f32) + ((FloatOps.matmul (F := Ideal) _ none _ _ _ (ix2 p q) + FloatOps.matmul (F := Ideal) _ none _ _ _ (ix2 p q)) + FloatOps.matmul (F := Ideal) _ none _ _ _ (ix2 p q)) = _
  rw [matmul_zero_apply plain1 rfl rfl, matmul_zero_apply plain1 rfl rfl, matmul_zero_apply plain1 rfl rfl]
  rfl

/-- With real entries the second body adds the plain product to the sum it was entered with. -/
theorem pay2_real (x3 : Vec Ideal S1024x1024 .f32) (x7 : Vec Ideal S1024x512 .f32) (x22 : Vec Ideal S1024x512 .f32)
    (h3 : ∀ j, ∃ r : ℝ, x3 j = (r : EReal)) (h7 : ∀ j, ∃ r : ℝ, x7 j = (r : EReal)) (p : Fin 1024) (q : Fin 512) :
    k1_pay2 (F := Ideal) x3 x7 x22 (ix2 p q) = x22 (ix2 p q) + ∑ k : Fin 1024, x3 (ix2 p k) * x7 (ix2 k q) :=
  (pay2_apply x3 x7 x22 p q).trans (congrArg (x22 (ix2 p q) + ·)
    (CompensatedSum.three_pass (fun k : Fin 1024 => x3 (ix2 p k)) (fun k : Fin 1024 => x7 (ix2 k q)) (fun k => h3 _) (fun k => h7 _)))

/-- The reset block is zero at every entry. -/
theorem pay1_apply (j : S1024x512.Idx) : k1_pay1 (F := Ideal) j = 0 := by
  unfold k1_pay1
  simp only [shapeCast_self]
  exact Ideal.ofBits_zero_f32

end Cert.KernelIdeal.Val

end
-- ==== Proof.KiValue.lean ====
/-
  The two result arrays as whole-array functions of the arrays the regions find, on the extended reals, when every
  entry those regions read is a real number.

  First region: block t of h is rows 1024 t .. 1024 t + 1023, and entry (r, q) of it is the sum over k of x(r, k) W(k, q).
  Second region: at grid position n = 16 i + k the running sum's entry (p, q) is the sum over the tiles k' ≤ k and the
  1024 columns kk within a tile of adj(1024 i + p, 1024 k' + kk) · h(1024 k' + kk, q) — by induction on the position, each
  step adding one tile's product. At k = 15 the sixteen tiles make up the whole sum over K < 16384, and that is what the
  position writes into rows 1024 i .. of the result. The blocks written back cover each array.
-/
import proofs.«180485_j6957847019676_2_alg».proof.Proof.KiPieces
import proofs.«180485_j6957847019676_2_alg».proof.Proof.KiPayload
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.KernelIdeal.Val

/-- The product x · W, entry by entry. -/
def prodXW (x : S16384x2048.Idx → EReal) (w : S2048x512.Idx → EReal) : S16384x512.Idx → EReal :=
  fun i => ∑ k : Fin 2048, x (ix2 ⟨(i 0).val, idx2_lt0 i⟩ k) * w (ix2 k ⟨(i 1).val, idx2_lt1 i⟩)

/-- The product adj · h, entry by entry. -/
def prodAH (a : S16384x16384.Idx → EReal) (h : S16384x512.Idx → EReal) : S16384x512.Idx → EReal :=
  fun i => ∑ K : Fin 16384, a (ix2 ⟨(i 0).val, idx2_lt0 i⟩ K) * h (ix2 K ⟨(i 1).val, idx2_lt1 i⟩)

/-- The bodies at any entry j of a block, real entries assumed. -/
theorem pay0_at (x0 : Vec Ideal S1024x2048 .f32) (x1 : Vec Ideal S2048x512 .f32)
    (h0 : ∀ j, ∃ r : ℝ, x0 j = (r : EReal)) (h1 : ∀ j, ∃ r : ℝ, x1 j = (r : EReal)) (j : S1024x512.Idx) :
    k0_pay1 (F := Ideal) x0 x1 j = ∑ k : Fin 2048, x0 (ix2 ⟨(j 0).val, idx2_lt0 j⟩ k) * x1 (ix2 k ⟨(j 1).val, idx2_lt1 j⟩) := by
  have e := pay0_real x0 x1 h0 h1 ⟨(j 0).val, idx2_lt0 j⟩ ⟨(j 1).val, idx2_lt1 j⟩
  rwa [show ix2 (⟨(j 0).val, idx2_lt0 j⟩ : Fin 1024) (⟨(j 1).val, idx2_lt1 j⟩ : Fin 512) = j from (eq_ix2 j).symm] at e

theorem pay2_at (x3 : Vec Ideal S1024x1024 .f32) (x7 : Vec Ideal S1024x512 .f32) (x22 : Vec Ideal S1024x512 .f32)
    (h3 : ∀ j, ∃ r : ℝ, x3 j = (r : EReal)) (h7 : ∀ j, ∃ r : ℝ, x7 j = (r : EReal)) (j : S1024x512.Idx) :
    k1_pay2 (F := Ideal) x3 x7 x22 j = x22 j + ∑ k : Fin 1024, x3 (ix2 ⟨(j 0).val, idx2_lt0 j⟩ k) * x7 (ix2 k ⟨(j 1).val, idx2_lt1 j⟩) := by
  have e := pay2_real x3 x7 x22 h3 h7 ⟨(j 0).val, idx2_lt0 j⟩ ⟨(j 1).val, idx2_lt1 j⟩
  rwa [show ix2 (⟨(j 0).val, idx2_lt0 j⟩ : Fin 1024) (⟨(j 1).val, idx2_lt1 j⟩ : Fin 512) = j from (eq_ix2 j).symm] at e

/-- Sums of products agree when the factors do. -/
theorem sum_mul_congr {ι : Type} [Fintype ι] {f f' g g' : ι → EReal} (hf : ∀ k, f k = f' k) (hg : ∀ k, g k = g' k) :
    (∑ k, f k * g k) = ∑ k, f' k * g' k :=
  Finset.sum_congr rfl fun k _ => by rw [hf k, hg k]

/-! ## The first region -/

/-- The printed index maps of the first region, decided over its 16 points. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section R0
variable (V : (c : Dev nD) → (b : Ref sig .tc) → Buf (Elt Ideal) ((c : Thread nD τ).loc b))

/-- What point t writes back is block t of x · W. -/
theorem flushed0_eq (c : Dev nD) (hx : ∀ j, ∃ r : ℝ, V c main_arg0 j = (r : EReal)) (hw : ∀ j, ∃ r : ℝ, V c main_arg2 j = (r : EReal))
    (t : Fin cfg0.N) :
    (dat0 V c).flushed 2 t = ((cfg0.win 2).blk t).view.read (Elt Ideal) (prodXW (V c main_arg0) (V c main_arg2)) := by
  show (cfg0.win 2).cut (grid0.coords t) ((dat0 V c).after 2 t) = _
  rw [after0_2, out0_2_eq]
  obtain ⟨e0, e1, e2, e3, e4, e5⟩ := idx0 t
  funext y
  refine (pay0_at (iblk0 V c 0 t) (iblk0 V c 1 t) (fun j => hx _) (fun j => hw _) y).trans ?_
  have hy0 : (y 0).val < 1024 := idx2_lt0 y
  have hy1 : (y 1).val < 512 := idx2_lt1 y
  have ha : ∀ k : Fin 2048, ((cfg0.win 0).blk t).view.emb (ix2 ⟨(y 0).val, hy0⟩ k) = ix2 ⟨((((cfg0.win 2).blk t).view.emb y) 0).val, idx2_lt0 _⟩ k := fun k => by
    funext a; apply Fin.ext
    match a with
    | ⟨0, _⟩ => show win0_0.index t (0 : Fin 2) * 1024 + 1 * (y 0).val = win0_2.index t (0 : Fin 2) * 1024 + 1 * (y 0).val; omega
    | ⟨1, _⟩ => show win0_0.index t (1 : Fin 2) * 2048 + 1 * k.val = k.val; omega
  have hb : ∀ k : Fin 2048, ((cfg0.win 1).blk t).view.emb (ix2 k ⟨(y 1).val, hy1⟩) = ix2 k ⟨((((cfg0.win 2).blk t).view.emb y) 1).val, idx2_lt1 _⟩ := fun k => by
    funext a; apply Fin.ext
    match a with
    | ⟨0, _⟩ => show win0_1.index t (0 : Fin 2) * 2048 + 1 * k.val = k.val; omega
    | ⟨1, _⟩ => show win0_1.index t (1 : Fin 2) * 512 + 1 * (y 1).val = win0_2.index t (1 : Fin 2) * 512 + 1 * (y 1).val; omega
  exact sum_mul_congr
    (f := fun k : Fin 2048 => iblk0 V c 0 t (ix2 ⟨(y 0).val, hy0⟩ k)) (g := fun k : Fin 2048 => iblk0 V c 1 t (ix2 k ⟨(y 1).val, hy1⟩))
    (f' := fun k : Fin 2048 => V c main_arg0 (ix2 ⟨((((cfg0.win 2).blk t).view.emb y) 0).val, idx2_lt0 _⟩ k))
    (g' := fun k : Fin 2048 => V c main_arg2 (ix2 k ⟨((((cfg0.win 2).blk t).view.emb y) 1).val, idx2_lt1 _⟩))
    (fun k => congrArg (V c main_arg0) (ha k)) (fun k => congrArg (V c main_arg2) (hb k))

/-- An index of h is in point t's block iff each coordinate is in the block's range. -/
theorem mem_blk0 (t : Fin cfg0.N) (i : S16384x512.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v0).slice (win0_2.rect t)).set ↔ _
  rw [View.set_slice_whole, Rect.mem_set_unit]
  exact Iff.rfl

/-- After the first region h holds x · W: the sixteen row blocks cover it. -/
theorem final0 (c : Dev nD) (hx : ∀ j, ∃ r : ℝ, V c main_arg0 j = (r : EReal)) (hw : ∀ j, ∃ r : ℝ, V c main_arg2 j = (r : EReal)) :
    (dat0 V c).arrAt 2 cfg0.N = prodXW (V c main_arg0) (V c main_arg2) :=
  (dat0 V c).arrAt_eq_of_cover 2 _ (fun t _ => flushed0_eq V c hx hw t) fun i => by
    have hi0 : (i 0).val < 16384 := idx2_lt0 i
    have hi1 : (i 1).val < 512 := idx2_lt1 i
    have hN : cfg0.N = 16 := N_0
    refine ⟨⟨(i 0).val / 1024, by rw [hN]; omega⟩, flush0_2 _, ?_⟩
    rw [mem_blk0]
    obtain ⟨e0, e1, e2, e3, e4, e5⟩ := idx0 ⟨(i 0).val / 1024, by rw [hN]; omega⟩
    intro a
    match a with
    | ⟨0, _⟩ => show win0_2.index _ (0 : Fin 2) * 1024 ≤ (i 0).val ∧ (i 0).val < win0_2.index _ (0 : Fin 2) * 1024 + 1024; rw [e4]; dsimp only; omega
    | ⟨1, _⟩ => show win0_2.index _ (1 : Fin 2) * 512 ≤ (i 1).val ∧ (i 1).val < win0_2.index _ (1 : Fin 2) * 512 + 512; rw [e5]; omega

end R0

/-! ## The second region -/

/-- The printed index maps of the second region and the rows of h a point reads, decided over its 256 points:
    position t is row block t / 16 and column block t % 16. -/
theorem idx1 : ∀ t : Fin cfg1.N, win1_0.index t (0 : Fin 2) = t.val / 16 ∧ win1_0.index t (1 : Fin 2) = t.val % 16
    ∧ win1_1.index t (0 : Fin 2) = 0 ∧ win1_1.index t (1 : Fin 2) = 0
    ∧ win1_2.index t (0 : Fin 2) = t.val / 16 ∧ win1_2.index t (1 : Fin 2) = 0
    ∧ k1_off1 (grid1.coords t) (0 : Fin 2) = 1024 * (t.val % 16) ∧ k1_off1 (grid1.coords t) (1 : Fin 2) = 0 :=
  (by decide +kernel : ∀ t : Fin grid1.N, _)

/-- adj and h read at natural coordinates (zero outside the array, which no use below reaches). -/
def adjN (a : S16384x16384.Idx → EReal) (r s : ℕ) : EReal :=
  if h : r < 16384 ∧ s < 16384 then a (ix2 ⟨r, h.1⟩ ⟨s, h.2⟩) else 0
def hN (hh : S16384x512.Idx → EReal) (r s : ℕ) : EReal :=
  if h : r < 16384 ∧ s < 512 then hh (ix2 ⟨r, h.1⟩ ⟨s, h.2⟩) else 0

/-- adj · h at an entry as sixteen sums over blocks of 1024 columns. -/
theorem prodAH_blocks (a : S16384x16384.Idx → EReal) (hh : S16384x512.Idx → EReal) (i : S16384x512.Idx) :
    prodAH a hh i = ∑ b ∈ Finset.range 16, ∑ kk : Fin 1024, adjN a (i 0).val (1024 * b + kk.val) * hN hh (1024 * b + kk.val) (i 1).val := by
  unfold prodAH
  have hterm : ∀ K : Fin 16384, a (ix2 ⟨(i 0).val, idx2_lt0 i⟩ K) * hh (ix2 K ⟨(i 1).val, idx2_lt1 i⟩)
      = (fun K : ℕ => adjN a (i 0).val K * hN hh K (i 1).val) K.val := fun K => by
    show _ = adjN a (i 0).val K.val * hN hh K.val (i 1).val
    unfold adjN hN
    rw [dif_pos ⟨idx2_lt0 i, K.isLt⟩, dif_pos ⟨K.isLt, idx2_lt1 i⟩]
  refine (Finset.sum_congr rfl (fun K _ => hterm K)).trans
    ((CompensatedSum.sum_blocks (fun K : ℕ => adjN a (i 0).val K * hN hh K (i 1).val)).trans ?_)
  refine Finset.sum_congr rfl fun b _ => Finset.sum_congr rfl fun kk _ => ?_
  show adjN _ _ (b * 1024 + kk.val) * hN _ (b * 1024 + kk.val) _ = adjN _ _ (1024 * b + kk.val) * hN _ (1024 * b + kk.val) _
  rw [Nat.mul_comm b 1024]

section R1
variable (V : (c : Dev nD) → (b : Ref sig .tc) → Buf (Elt Ideal) ((c : Thread nD τ).loc b))

/-- One tile's product at entry y of the block. -/
def tileSum (c : Dev nD) (i k : ℕ) (y : S1024x512.Idx) : EReal :=
  ∑ kk : Fin 1024, adjN (V c main_arg1) (1024 * i + (y 0).val) (1024 * k + kk.val) * hN (V c main_v0) (1024 * k + kk.val) (y 1).val

/-- One step at entry y: the sum entered with, plus the tile's product. -/
theorem step_apply (c : Dev nD) (hA : ∀ j, ∃ r : ℝ, V c main_arg1 j = (r : EReal)) (hH : ∀ j, ∃ r : ℝ, V c main_v0 j = (r : EReal))
    (t : Fin cfg1.N) (acc : Vec Ideal S1024x512 .f32) (y : S1024x512.Idx) :
    step (grid1.coords t) (iblk1 V c 0 t) (iblk1 V c 1 t) acc y = acc y + tileSum V c (t.val / 16) (t.val % 16) y := by
  obtain ⟨e0, e1, e2, e3, e4, e5, e6, e7⟩ := idx1 t
  have hy0 : (y 0).val < 1024 := idx2_lt0 y
  have hy1 : (y 1).val < 512 := idx2_lt1 y
  have hNt : t.val < 256 := lt_of_lt_of_eq t.isLt (show cfg1.N = 256 from N_1)
  refine (pay2_at (iblk1 V c 0 t) (rowsOf (grid1.coords t) (iblk1 V c 1 t)) acc (fun j => hA _) (fun j => hH _) y).trans ?_
  refine congrArg (acc y + ·) (Finset.sum_congr rfl fun kk _ => ?_)
  have hk : kk.val < 1024 := kk.isLt
  have ea : iblk1 V c 0 t (ix2 ⟨(y 0).val, hy0⟩ kk) = adjN (V c main_arg1) (1024 * (t.val / 16) + (y 0).val) (1024 * (t.val % 16) + kk.val) := by
    unfold adjN
    rw [dif_pos ⟨by omega, by omega⟩]
    show V c main_arg1 (((cfg1.win 0).blk t).view.emb (ix2 ⟨(y 0).val, hy0⟩ kk)) = _
    congr 1
    funext a; apply Fin.ext
    match a with
    | ⟨0, _⟩ => show win1_0.index t (0 : Fin 2) * 1024 + 1 * (y 0).val = 1024 * (t.val / 16) + (y 0).val; omega
    | ⟨1, _⟩ => show win1_0.index t (1 : Fin 2) * 1024 + 1 * kk.val = 1024 * (t.val % 16) + kk.val; omega
  have eh : rowsOf (grid1.coords t) (iblk1 V c 1 t) (ix2 kk ⟨(y 1).val, hy1⟩) = hN (V c main_v0) (1024 * (t.val % 16) + kk.val) (y 1).val := by
    unfold hN
    rw [dif_pos ⟨by omega, by omega⟩]
    show V c main_v0 (((cfg1.win 1).blk t).view.emb ((Rect.unit (s := S16384x512) (k1_off1 (grid1.coords t)) S1024x512.size (k1_off1_inb (grid1.coords t))).idx (ix2 kk ⟨(y 1).val, hy1⟩))) = _
    congr 1
    funext a; apply Fin.ext
    match a with
    | ⟨0, _⟩ => show win1_1.index t (0 : Fin 2) * 16384 + 1 * (k1_off1 (grid1.coords t) (0 : Fin 2) + 1 * kk.val) = 1024 * (t.val % 16) + kk.val; omega
    | ⟨1, _⟩ => show win1_1.index t (1 : Fin 2) * 512 + 1 * (k1_off1 (grid1.coords t) (1 : Fin 2) + 1 * (y 1).val) = (y 1).val; omega
  rw [ea, eh]

/-- THE RUNNING SUM at an entry: the tiles k' ≤ k of row block i, for position n = 16 i + k. -/
theorem runSum_apply (c : Dev nD) (hA : ∀ j, ∃ r : ℝ, V c main_arg1 j = (r : EReal)) (hH : ∀ j, ∃ r : ℝ, V c main_v0 j = (r : EReal)) :
    ∀ (n : ℕ) (h : n < cfg1.N) (y : S1024x512.Idx),
      runSum V c n h y = ∑ k' ∈ Finset.range (n % 16 + 1), tileSum V c (n / 16) k' y
  | 0, h, y => by
    rw [runSum_zero, step_apply V c hA hH ⟨0, h⟩ _ y, pay1_apply, zero_add]
    show tileSum V c (0 / 16) (0 % 16) y = ∑ k' ∈ Finset.range (0 % 16 + 1), tileSum V c (0 / 16) k' y
    rw [show (0 % 16 + 1) = 1 from rfl, Finset.sum_range_one]
  | n + 1, h, y => by
    by_cases h0 : (n + 1) % 16 = 0
    · rw [runSum_reset V c n h h0, step_apply V c hA hH ⟨n + 1, h⟩ _ y, pay1_apply, zero_add]
      show tileSum V c ((n + 1) / 16) ((n + 1) % 16) y = ∑ k' ∈ Finset.range ((n + 1) % 16 + 1), tileSum V c ((n + 1) / 16) k' y
      rw [h0, show (0 + 1) = 1 from rfl, Finset.sum_range_one]
    · rw [runSum_step V c n h h0, step_apply V c hA hH ⟨n + 1, h⟩ _ y, runSum_apply c hA hH n (Nat.lt_of_succ_lt h) y]
      have hd : (n + 1) / 16 = n / 16 := by omega
      have hm : (n + 1) % 16 = n % 16 + 1 := by omega
      show (∑ k' ∈ Finset.range (n % 16 + 1), tileSum V c (n / 16) k' y) + tileSum V c ((n + 1) / 16) ((n + 1) % 16) y
        = ∑ k' ∈ Finset.range ((n + 1) % 16 + 1), tileSum V c ((n + 1) / 16) k' y
      rw [hd, hm, Finset.sum_range_succ _ (n % 16 + 1)]

set_option maxRecDepth 65536 in
/-- What a position with k = 15 writes back is its row block of adj · h. -/
theorem flushed1_eq (c : Dev nD) (hA : ∀ j, ∃ r : ℝ, V c main_arg1 j = (r : EReal)) (hH : ∀ j, ∃ r : ℝ, V c main_v0 j = (r : EReal))
    (t : Fin cfg1.N) (hf : (cfg1.win 2).flush t = true) :
    (dat1 V c).flushed 2 t = ((cfg1.win 2).blk t).view.read (Elt Ideal) (prodAH (V c main_arg1) (V c main_v0)) := by
  have h15 : t.val % 16 = 15 := (flush1_2 t).mp hf
  obtain ⟨e0, e1, e2, e3, e4, e5, e6, e7⟩ := idx1 t
  have hNt : t.val < 256 := lt_of_lt_of_eq t.isLt (show cfg1.N = 256 from N_1)
  show (cfg1.win 2).cut (grid1.coords t) ((dat1 V c).after 2 t) = _
  rw [after1_2, output_eq V c t.val t.isLt h15]
  funext y
  have hy0 : (y 0).val < 1024 := idx2_lt0 y
  have hy1 : (y 1).val < 512 := idx2_lt1 y
  have hsum : (∑ k' ∈ Finset.range (t.val % 16 + 1), tileSum V c (t.val / 16) k' y) = ∑ k' ∈ Finset.range 16, tileSum V c (t.val / 16) k' y := by
    rw [h15]
  have er : ((((cfg1.win 2).blk t).view.emb y) 0).val = 1024 * (t.val / 16) + (y 0).val := by
    show win1_2.index t (0 : Fin 2) * 1024 + 1 * (y 0).val = _; omega
  have ec : ((((cfg1.win 2).blk t).view.emb y) 1).val = (y 1).val := by
    show win1_2.index t (1 : Fin 2) * 512 + 1 * (y 1).val = _; omega
  refine (runSum_apply V c hA hH t.val t.isLt y).trans (hsum.trans ?_)
  refine Eq.trans ?_ (prodAH_blocks (V c main_arg1) (V c main_v0) (((cfg1.win 2).blk t).view.emb y)).symm
  refine Finset.sum_congr rfl fun b _ => ?_
  unfold tileSum
  exact Finset.sum_congr rfl fun kk _ => by rw [er, ec]

/-- An index of the result is in position t's block iff each coordinate is in the block's range. -/
theorem mem_blk1 (t : Fin cfg1.N) (i : S16384x512.Idx) :
    i ∈ ((cfg1.win 2).blk t).view.set ↔ ∀ a : Fin 2, win1_2.index t a * S1024x512.size a ≤ (i a).val ∧ (i a).val < win1_2.index t a * S1024x512.size a + S1024x512.size a := by
  show i ∈ ((View.whole main_v1).slice (win1_2.rect t)).set ↔ _
  rw [View.set_slice_whole, Rect.mem_set_unit]
  exact Iff.rfl

/-- After the second region the result holds adj · h: the sixteen row blocks, each written at its k = 15, cover it. -/
theorem final1 (c : Dev nD) (hA : ∀ j, ∃ r : ℝ, V c main_arg1 j = (r : EReal)) (hH : ∀ j, ∃ r : ℝ, V c main_v0 j = (r : EReal)) :
    (dat1 V c).arrAt 2 cfg1.N = prodAH (V c main_arg1) (V c main_v0) :=
  (dat1 V c).arrAt_eq_of_cover 2 _ (fun t hf => flushed1_eq V c hA hH t hf) fun i => by
    have hi0 : (i 0).val < 16384 := idx2_lt0 i
    have hi1 : (i 1).val < 512 := idx2_lt1 i
    have hN : cfg1.N = 256 := N_1
    have ht : 16 * ((i 0).val / 1024) + 15 < cfg1.N := by rw [hN]; omega
    refine ⟨⟨16 * ((i 0).val / 1024) + 15, ht⟩, (flush1_2 _).mpr (by dsimp only; omega), ?_⟩
    rw [mem_blk1]
    obtain ⟨e0, e1, e2, e3, e4, e5, e6, e7⟩ := idx1 ⟨16 * ((i 0).val / 1024) + 15, ht⟩
    intro a
    match a with
    | ⟨0, _⟩ => show win1_2.index _ (0 : Fin 2) * 1024 ≤ (i 0).val ∧ (i 0).val < win1_2.index _ (0 : Fin 2) * 1024 + 1024; rw [e4]; dsimp only; omega
    | ⟨1, _⟩ => show win1_2.index _ (1 : Fin 2) * 512 ≤ (i 1).val ∧ (i 1).val < win1_2.index _ (1 : Fin 2) * 512 + 512; rw [e5]; omega

end R1

end Cert.KernelIdeal.Frm

end
-- ==== Proof.KiResult.lean ====
/-
  The whole program's result, on the extended reals, for real inputs: the first region leaves h = x · W, whose entries
  are then real too (finite sums of products of reals), so the second region leaves adj · h = adj · (x · W).
-/
import proofs.«180485_j6957847019676_2_alg».proof.Proof.KiRun
import proofs.«180485_j6957847019676_2_alg».proof.Proof.KiValue
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (m : (ℓ : Loc nD τ sig) → Buf (Elt Ideal) ℓ)

/-- The result array after both regions is adj · (x · W) of the launch contents, when every input entry is real. -/
theorem result_eq (c : Dev nD)
    (hx : ∀ j, ∃ r : ℝ, m ((c : Thread nD τ).loc main_arg0) j = (r : EReal))
    (ha : ∀ j, ∃ r : ℝ, m ((c : Thread nD τ).loc main_arg1) j = (r : EReal))
    (hw : ∀ j, ∃ r : ℝ, m ((c : Thread nD τ).loc main_arg2) j = (r : EReal)) :
    (dat1 (Ve1 m) c).arrAt 2 cfg1.N
      = prodAH (m ((c : Thread nD τ).loc main_arg1)) (prodXW (m ((c : Thread nD τ).loc main_arg0)) (m ((c : Thread nD τ).loc main_arg2))) := by
  have h0 : (dat0 (Ve0 m) c).arrAt 2 cfg0.N = prodXW (m ((c : Thread nD τ).loc main_arg0)) (m ((c : Thread nD τ).loc main_arg2)) :=
    final0 (Ve0 m) c hx hw
  have hv0 : Ve1 m c main_v0 = prodXW (m ((c : Thread nD τ).loc main_arg0)) (m ((c : Thread nD τ).loc main_arg2)) :=
    (Ve1_main_v0 m c).trans h0
  have hv1 : Ve1 m c main_arg1 = m ((c : Thread nD τ).loc main_arg1) := Ve1_main_arg1 m c
  have hA : ∀ j, ∃ r : ℝ, Ve1 m c main_arg1 j = (r : EReal) := fun j => by rw [hv1]; exact ha j
  have hH : ∀ j, ∃ r : ℝ, Ve1 m c main_v0 j = (r : EReal) := fun j => by
    rw [hv0]
    exact CompensatedSum.sum_mul_real _ _ (fun k => hx _) (fun k => hw _)
  refine (final1 (Ve1 m) c hA hH).trans ?_
  rw [hv1, hv0]

end Cert.KernelIdeal.Frm

end
-- ==== Proof.FiniteInputs.lean ====
/-
  From the precondition "all three inputs are finite" to: every entry of every input is a real number.

  The precondition is the conjunction of three tests `all (|x| < +∞)`, one per input. A conjunction of
  one-bit words that is 1 has both words 1; a reduction by `and` over all axes that is 1 met a 1 at every
  index; and at an index the test reads `max x (-x) < ⊤` in the extended reals, which excludes `⊤` and `⊥`
  and so leaves the real numbers.
-/
import proofs.«180485_j6957847019676_2_alg».proof.Defs
import proofs.«180485_j6957847019676_2_alg».proof.Proof.Gen.Pre_finite_inputs
import Idealize.ShloMosaic.Lib.ReduceAll
import Idealize.ShloMosaic.Lib.ValueIdx
import Idealize.ShloMosaic.Lib.IdealHost
import Idealize.ShloMosaic.PureOps.Ideal

namespace Cert.Proof.Finite

open Idealize.ShloMosaic Idealize.ShloMosaic.ValueIdx Cert.Pre_finite_inputs

/-- the rank-0 shape has exactly one index -/
instance : Subsingleton S_.Idx := ⟨fun a b => funext fun d => d.elim0⟩

/-- the 32-bit pattern with all exponent bits set, sign and significand zero, denotes `+∞` -/
theorem inf_pattern : Ideal.ofBits .f32 0x7F800000#32 = (⊤ : EReal) := by
  simp [Ideal.ofBits, Ideal.ieee]

/-- an extended real whose absolute value `max x (-x)` lies below `+∞` is a real number:
    at `⊤` the maximum is `⊤`, at `⊥` it is `-⊥ = ⊤` -/
theorem real_of_abs_lt_top (x : EReal) (h : max x (-x) < ⊤) : ∃ r : ℝ, x = (r : EReal) := by
  induction x using EReal.rec with
  | bot => simp at h
  | coe r => exact ⟨r, rfl⟩
  | top => simp at h

/-- one entry: where the elementwise test `|x| < +∞` gives the word 1, the entry is a real number -/
theorem real_entry {s : Shape} (hb : S_.BroadcastsInDim s (![] : Fin 0 → Fin s.rank)) (x : FVec Ideal s .f32) (i : s.Idx)
    (e : cmpf .olt (Host.absf x) (broadcastInDim s ![] hb (constant S_ .f32 0x7F800000#32)) i = 1#1) :
    ∃ r : ℝ, x i = (r : EReal) := by
  -- read both sides of the comparison at the index: `max (x i) (-(x i))` against the constant `⊤`
  rw [cmpf_apply, broadcastInDim_scalar_apply, constant_apply, inf_pattern] at e
  change BitVec.ofBool (decide (max (x i : EReal) (-(x i : EReal)) < ⊤)) = 1#1 at e
  by_cases hlt : max (x i : EReal) (-(x i : EReal)) < ⊤
  · exact real_of_abs_lt_top _ hlt
  · simp [hlt] at e

/-- the precondition gives: every entry of each of the three inputs is a real number -/
theorem real_entries [Cert.Pre_finite_inputs.Facts] (x0 : FVec Ideal S16384x2048 .f32)
    (x1 : FVec Ideal S16384x16384 .f32) (x2 : FVec Ideal S2048x512 .f32)
    (h : Cert.Pre_finite_inputs.fn (F := Ideal) x0 x1 x2 = fun _ => 1#1) :
    (∀ i, ∃ r : ℝ, x0 i = (r : EReal)) ∧ (∀ i, ∃ r : ℝ, x1 i = (r : EReal))
      ∧ (∀ i, ∃ r : ℝ, x2 i = (r : EReal)) := by
  -- the predicate's value at its one index, with the operations in view
  have h' := congrFun h ValueIdx.ix0
  dsimp only [Cert.Pre_finite_inputs.fn] at h'
  -- `(t0 and t1) and t2 = 1` gives `t0 = 1`, `t1 = 1`, `t2 = 1`
  obtain ⟨h01, h2⟩ := IntOp.andi_eq_one.1 h'
  obtain ⟨h0, h1⟩ := IntOp.andi_eq_one.1 h01
  -- each `t` is a reduction by `and` over every axis, so each element of the reduced array is 1
  exact ⟨fun i => real_entry _ x0 i (Host.reduce_andi_all _ _ _ _ _ h0 i),
    fun i => real_entry _ x1 i (Host.reduce_andi_all _ _ _ _ _ h1 i),
    fun i => real_entry _ x2 i (Host.reduce_andi_all _ _ _ _ _ h2 i)⟩

end Cert.Proof.Finite
-- ==== Proof.lean ====
/-
  Equivalence of a two-kernel graph-convolution layer with its reference, out = adj · (x · W).

  Each kernel feeds the matrix unit a compensated split of its operands: with a_hi the operand narrowed to the
  16-bit format and a_lo the narrowed remainder a − a_hi, it sums a_hi·b_hi + a_hi·b_lo + a_lo·b_hi. On the extended
  reals a change of format is the identity, so a_hi = a and a_lo = a − a, which is 0 exactly when a is a real number:
  under the precondition that every input entry is finite, each kernel computes its plain product. The first kernel
  writes h = x · W one block of 1024 rows per grid point. The second runs over a 16 × 16 grid, keeps a running sum in
  a scratch buffer — reset at column block 0, one 1024-column tile of adj times the matching 1024 rows of h added per
  point, stored into the result at column block 15 — and the sixteen tile sums are the one sum over all 16384
  columns. The entries of h are finite sums of products of reals, hence real, which the second kernel's
  compensation needs in turn. The reference's two contractions are the same double sum.

  The frames: both programs are two kernel regions in a row; each region's body is run at every grid point (the second
  by cases on the column block), and the argument arrays are only ever read. The idealization replaced four
  narrow-then-widen pairs by the identity, which is what they are on the extended reals.
-/
import proofs.«180485_j6957847019676_2_alg».proof.Defs
import proofs.«180485_j6957847019676_2_alg».proof.Proof.Gen.Kernel
import proofs.«180485_j6957847019676_2_alg».proof.Proof.Gen.KernelIdeal
import proofs.«180485_j6957847019676_2_alg».proof.Proof.Gen.ReferenceIdeal
import proofs.«180485_j6957847019676_2_alg».proof.Proof.Gen.Pre_finite_inputs
import proofs.«180485_j6957847019676_2_alg».proof.Proof.Gen.ReferenceIdeal.Read
import proofs.«180485_j6957847019676_2_alg».proof.Proof.KnRun
import proofs.«180485_j6957847019676_2_alg».proof.Proof.KiResult
import proofs.«180485_j6957847019676_2_alg».proof.Proof.FiniteInputs

noncomputable section

namespace Cert.Proof

open Idealize.ShloMosaic Idealize.ShloMosaic.TcCoe Idealize.SL.Sem Idealize.ShloMosaic.ValueIdx

/-! ## The reference's result is the same double sum -/

namespace RefValue

open Cert.ReferenceIdeal Cert.ReferenceIdeal.Read Cert.KernelIdeal.Frm

theorem lidx0_eq (j : S16384x512.Idx) (k : Fin 2048) : lidx_main_v0 j k = ix2 ⟨(j 0).val, idx2_lt0 j⟩ k :=
  funext fun a => by match a with | ⟨0, _⟩ => rfl | ⟨1, _⟩ => rfl
theorem ridx0_eq (j : S16384x512.Idx) (k : Fin 2048) : ridx_main_v0 j k = ix2 k ⟨(j 1).val, idx2_lt1 j⟩ :=
  funext fun a => by match a with | ⟨0, _⟩ => rfl | ⟨1, _⟩ => rfl
theorem lidx1_eq (j : S16384x512.Idx) (k : Fin 16384) : lidx_main_v1 j k = ix2 ⟨(j 0).val, idx2_lt0 j⟩ k :=
  funext fun a => by match a with | ⟨0, _⟩ => rfl | ⟨1, _⟩ => rfl
theorem ridx1_eq (j : S16384x512.Idx) (k : Fin 16384) : ridx_main_v1 j k = ix2 k ⟨(j 1).val, idx2_lt1 j⟩ :=
  funext fun a => by match a with | ⟨0, _⟩ => rfl | ⟨1, _⟩ => rfl

/-- The reference's first contraction is x · W, -/
theorem stage0_eq (x0 : S16384x2048.Idx → EReal) (x2 : S2048x512.Idx → EReal) :
    val_main_v0 (F := Ideal) x0 x2 = prodXW x0 x2 := by
  funext j
  rw [val_main_v0_apply]
  exact Finset.sum_congr rfl fun k _ => by rw [lidx0_eq, ridx0_eq]

/-- and its second is adj · (x · W). -/
theorem stage1_eq (x0 : S16384x2048.Idx → EReal) (x1 : S16384x16384.Idx → EReal) (x2 : S2048x512.Idx → EReal) :
    val_main_v1 (F := Ideal) x0 x1 x2 = prodAH x1 (prodXW x0 x2) := by
  funext j
  rw [val_main_v1_apply, stage0_eq]
  exact Finset.sum_congr rfl fun k _ => by rw [lidx1_eq, ridx1_eq]

end RefValue

/-! ## The claims -/

theorem frame_k : Cert.frame_Kernel := fun m ρ _ =>
  (θ_run Cert.Kernel.defs _ _).mono (fun _ h c => (h c).2) (Cert.Kernel.Frm.run_all (F := Bits) m ρ)

theorem frame_ki : Cert.frame_KernelIdeal := fun m ρ _ =>
  (θ_run Cert.KernelIdeal.defs _ _).mono (fun _ h c => (h c).2) (Cert.KernelIdeal.Frm.run_all (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

/-- The four rewrites of the idealization, each a narrow-then-widen pair that is the identity on the extended reals. -/
theorem preserves : Cert.preserves_Kernel_KernelIdeal :=
  ⟨IdealRules.truncf_extf.statement _ .f32 .bf16, IdealRules.truncf_extf.statement _ .f32 .bf16,
    IdealRules.truncf_extf.statement _ .f32 .bf16, IdealRules.truncf_extf.statement _ .f32 .bf16⟩

/-- Both idealized programs end with the result array at adj · (x · W) of arguments that agree. -/
theorem algebraic : Cert.algebraic_KernelIdeal_ReferenceIdeal := by
  intro m ρ m' ρ' hpre hagree
  have hr := fun c => Cert.Proof.Finite.real_entries _ _ _ (hpre c)
  refine ⟨fun c => Cert.KernelIdeal.Frm.prodAH (m ((c.tc : Thread Cert.KernelIdeal.nD Cert.KernelIdeal.τ).loc Cert.KernelIdeal.main_arg1))
      (Cert.KernelIdeal.Frm.prodXW (m ((c.tc : Thread Cert.KernelIdeal.nD Cert.KernelIdeal.τ).loc Cert.KernelIdeal.main_arg0))
        (m ((c.tc : Thread Cert.KernelIdeal.nD Cert.KernelIdeal.τ).loc Cert.KernelIdeal.main_arg2))), ?_, ?_⟩
  · exact (θ_run Cert.KernelIdeal.defs _ _).mono
      (fun _ h c => ⟨(h c).1.trans (Cert.KernelIdeal.Frm.result_eq m c (hr c).1 (hr c).2.1 (hr c).2.2), (h c).2⟩)
      (Cert.KernelIdeal.Frm.run_all (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v1_eq, RefValue.stage1_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
